-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x640 : Shape := ⟨3, ![4, 200, 640]⟩
abbrev S4x100x640 : Shape := ⟨3, ![4, 100, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S4x200x640 : S_.BroadcastsInDim S4x200x640 (![] : Fin 0 → Fin S4x200x640.rank)
  reducesTo_S4x200x640_S_d0_1_2 : S4x200x640.ReducesTo [0, 1, 2] S_
  h_S_ : 0 < S_.numel
  bcast_S_S4x100x640 : S_.BroadcastsInDim S4x100x640 (![] : Fin 0 → Fin S4x100x640.rank)
  reducesTo_S4x100x640_S_d0_1_2 : S4x100x640.ReducesTo [0, 1, 2] S_
  bcast_S_S1280x640 : S_.BroadcastsInDim S1280x640 (![] : Fin 0 → Fin S1280x640.rank)
  reducesTo_S1280x640_S_d0_1 : S1280x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S640x1024 .f32) (main_arg5 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg4
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x200x640 .f32) (main_arg1 : FVec F S4x100x640 .f32) (main_arg2 : FVec F S1280x640 .f32) (main_arg3 : FVec F S640 .f32) (main_arg4 : FVec F S640x1024 .f32) (main_arg5 : FVec F S1024 .f32) : IVec S_ 1 :=
  let main_v0 : FVec F S4x200x640 .f32 := Host.absf main_arg0
  let main_cst : FVec F S_ .f32 := constant S_ .f32 0x7F800000#32
  let main_v1 : FVec F S4x200x640 .f32 := broadcastInDim S4x200x640 ![] bcast_S_S4x200x640 main_cst
  let main_v2 : IVec S4x200x640 1 := cmpf .olt main_v0 main_v1
  let main_c : IVec S_ 1 := constantI S_ 1 1#1
  let main_v3 : IVec S_ 1 := (fun x v => Host.reduce IntOp.andi x v reducesTo_S4x200x640_S_d0_1_2 h_S_) main_v2 main_c
  let main_v4 : FVec F S4x100x640 .f32 := Host.absf main_arg1
  let main_cst_0 : FVec F S_ .f32 := constant S_ .f32 0x7F800000#32
  let main_v5 : FVec F S4x100x640 .f32 := broadcastInDim S4x100x640 ![] bcast_S_S4x100x640 main_cst_0
  let main_v6 : IVec S4x100x640 1 := cmpf .olt main_v4 main_v5
  let main_c_1 : IVec S_ 1 := constantI S_ 1 1#1
  let main_v7 : IVec S_ 1 := (fun x v => Host.reduce IntOp.andi x v reducesTo_S4x100x640_S_d0_1_2 h_S_) main_v6 main_c_1
  let main_v8 : IVec S_ 1 := andi main_v3 main_v7
  let main_v9 : FVec F S1280x640 .f32 := Host.absf main_arg2
  let main_cst_2 : FVec F S_ .f32 := constant S_ .f32 0x7F800000#32
  let main_v10 : FVec F S1280x640 .f32 := broadcastInDim S1280x640 ![] bcast_S_S1280x640 main_cst_2
  let main_v11 : IVec S1280x640 1 := cmpf .olt main_v9 main_v10
  let main_c_3 : IVec S_ 1 := constantI S_ 1 1#1
  let main_v12 : IVec S_ 1 := (fun x v => Host.reduce IntOp.andi x v reducesTo_S1280x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_v13 main_v16
-- ==== Kernel.lean ====
abbrev S4x200x640 : Shape := ⟨3, ![4, 200, 640]⟩
abbrev S4x100x640 : Shape := ⟨3, ![4, 100, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S640x640 : Shape := ⟨2, ![640, 640]⟩
abbrev S800x640 : Shape := ⟨2, ![800, 640]⟩
abbrev S400x640 : Shape := ⟨2, ![400, 640]⟩
abbrev S200x640 : Shape := ⟨2, ![200, 640]⟩
abbrev S1x640 : Shape := ⟨2, ![1, 640]⟩
abbrev S1x1024 : Shape := ⟨2, ![1, 1024]⟩
abbrev S4x20000x1024 : Shape := ⟨3, ![4, 20000, 1024]⟩
abbrev S1x8x640 : Shape := ⟨3, ![1, 8, 640]⟩
abbrev S1x100x640 : Shape := ⟨3, ![1, 100, 640]⟩
abbrev S1x800x1024 : Shape := ⟨3, ![1, 800, 1024]⟩
abbrev S8x640 : Shape := ⟨2, ![8, 640]⟩
abbrev S100x640 : Shape := ⟨2, ![100, 640]⟩
abbrev S8x1x640 : Shape := ⟨3, ![8, 1, 640]⟩
abbrev S8x100x640 : Shape := ⟨3, ![8, 100, 640]⟩
abbrev S1x1x640 : Shape := ⟨3, ![1, 1, 640]⟩
abbrev S800x1024 : Shape := ⟨2, ![800, 1024]⟩
abbrev S4x200x100x1024 : Shape := ⟨4, ![4, 200, 100, 1024]⟩

abbrev nBuf : Space → Nat
  | .hbm => 18
  | .vmem => 19
  | .smem => 0
  | _ => 0

abbrev bufTy : (tb : Table) → Fin (tcTables nBuf tb) → BufTy
  | .hbm, ⟨0, _⟩ => ⟨S4x200x640, .f32⟩
  | .hbm, ⟨1, _⟩ => ⟨S4x100x640, .f32⟩
  | .hbm, ⟨2, _⟩ => ⟨S1280x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S640x640, .f32⟩
  | .hbm, ⟨7, _⟩ => ⟨S640x640, .f32⟩
  | .hbm, ⟨8, _⟩ => ⟨S800x640, .f32⟩
  | .hbm, ⟨9, _⟩ => ⟨S400x640, .f32⟩
  | .hbm, ⟨10, _⟩ => ⟨S800x640, .f32⟩
  | .hbm, ⟨11, _⟩ => ⟨S400x640, .f32⟩
  | .hbm, ⟨12, _⟩ => ⟨S4x200x640, .f32⟩
  | .hbm, ⟨13, _⟩ => ⟨S4x100x640, .f32⟩
  | .hbm, ⟨14, _⟩ => ⟨S1x640, .f32⟩
  | .hbm, ⟨15, _⟩ => ⟨S1x1024, .f32⟩
  | .hbm, ⟨16, _⟩ => ⟨S4x20000x1024, .f32⟩
  | .hbm, ⟨17, _⟩ => ⟨S4x200x100x1024, .f32⟩
  | .local _ .vmem, ⟨0, _⟩ => ⟨S200x640, .f32⟩
  | .local _ .vmem, ⟨1, _⟩ => ⟨S200x640, .f32⟩
  | .local _ .vmem, ⟨2, _⟩ => ⟨S640x640, .f32⟩
  | .local _ .vmem, ⟨3, _⟩ => ⟨S200x640, .f32⟩
  | .local _ .vmem, ⟨4, _⟩ => ⟨S200x640, .f32⟩
  | .local _ .vmem, ⟨5, _⟩ => ⟨S200x640, .f32⟩
  | .local _ .vmem, ⟨6, _⟩ => ⟨S200x640, .f32⟩
  | .local _ .vmem, ⟨7, _⟩ => ⟨S640x640, .f32⟩
  | .local _ .vmem, ⟨8, _⟩ => ⟨S200x640, .f32⟩
  | .local _ .vmem, ⟨9, _⟩ => ⟨S200x640, .f32⟩
  | .local _ .vmem, ⟨10, _⟩ => ⟨S1x8x640, .f32⟩
  | .local _ .vmem, ⟨11, _⟩ => ⟨S1x8x640, .f32⟩
  | .local _ .vmem, ⟨12, _⟩ => ⟨S1x100x640, .f32⟩
  | .local _ .vmem, ⟨13, _⟩ => ⟨S1x100x640, .f32⟩
  | .local _ .vmem, ⟨14, _⟩ => ⟨S1x640, .f32⟩
  | .local _ .vmem, ⟨15, _⟩ => ⟨S640x1024, .f32⟩
  | .local _ .vmem, ⟨16, _⟩ => ⟨S1x1024, .f32⟩
  | .local _ .vmem, ⟨17, _⟩ => ⟨S1x800x1024, .f32⟩
  | .local _ .vmem, ⟨18, _⟩ => ⟨S1x800x1024, .f32⟩
  | _, _ => ⟨S4x200x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S640x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 25], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x100x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x640 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S640x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x800x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S1280x640_S640x640_0_0 : S1280x640.Slices ![0, 0] S640x640
  slices_S1280x640_S640x640_640_0 : S1280x640.Slices ![640, 0] S640x640
  shapeCasts_S4x200x640_S800x640 : S4x200x640.ShapeCasts S800x640
  shapeCasts_S4x100x640_S400x640 : S4x100x640.ShapeCasts S400x640
  inb_S200x640_S200x640_0_0 : ∀ a, (![0, 0] : Fin 2 → Nat) a + S200x640.size a ≤ S200x640.size a
  h_S200x640 : 0 < S200x640.numel
  shapeCasts_S200x640_S200x640 : S200x640.ShapeCasts S200x640
  bitsLt_bf16_f32 : FTy.bits .bf16 < FTy.bits .f32
  inb_S640x640_S640x640_0_0 : ∀ a, (![0, 0] : Fin 2 → Nat) a + S640x640.size a ≤ S640x640.size a
  h_S640x640 : 0 < S640x640.numel
  shapeCasts_S640x640_S640x640 : S640x640.ShapeCasts S640x640
  shapeCasts_S800x640_S4x200x640 : S800x640.ShapeCasts S4x200x640
  shapeCasts_S400x640_S4x100x640 : S400x640.ShapeCasts S4x100x640
  shapeCasts_S640_S1x640 : S640.ShapeCasts S1x640
  shapeCasts_S1024_S1x1024 : S1024.ShapeCasts S1x1024
  inb_S1x8x640_S1x8x640_0_0_0 : ∀ a, (![0, 0, 0] : Fin 3 → Nat) a + S1x8x640.size a ≤ S1x8x640.size a
  h_S1x8x640 : 0 < S1x8x640.numel
  shapeCasts_S1x8x640_S8x640 : S1x8x640.ShapeCasts S8x640
  inb_S1x100x640_S1x100x640_0_0_0 : ∀ a, (![0, 0, 0] : Fin 3 → Nat) a + S1x100x640.size a ≤ S1x100x640.size a
  h_S1x100x640 : 0 < S1x100x640.numel
  shapeCasts_S1x100x640_S100x640 : S1x100x640.ShapeCasts S100x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  shapeCasts_S8x640_S8x1x640 : S8x640.ShapeCasts S8x1x640
  shapeCasts_S100x640_S1x100x640 : S100x640.ShapeCasts S1x100x640
  broadcasts_S8x1x640_S8x100x640 : S8x1x640.Broadcasts S8x100x640
  broadcasts_S1x100x640_S8x100x640 : S1x100x640.Broadcasts S8x100x640
  shapeCasts_S1x640_S1x1x640 : S1x640.ShapeCasts S1x1x640
  broadcasts_S1x1x640_S8x100x640 : S1x1x640.Broadcasts S8x100x640
  shapeCasts_S8x100x640_S800x640 : S8x100x640.ShapeCasts S800x640
  inb_S640x1024_S640x1024_0_0 : ∀ a, (![0, 0] : Fin 2 → Nat) a + S640x1024.size a ≤ S640x1024.size a
  h_S640x1024 : 0 < S640x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S800x1024 : S1x1024.Broadcasts S800x1024
  inb_S1x800x1024_S1x800x1024_0_0_0 : ∀ a, (![0, 0, 0] : Fin 3 → Nat) a + S1x800x1024.size a ≤ S1x800x1024.size a
  h_S1x800x1024 : 0 < S1x800x1024.numel
  shapeCasts_S1x800x1024_S800x1024 : S1x800x1024.ShapeCasts S800x1024
  shapeCasts_S800x1024_S1x800x1024 : S800x1024.ShapeCasts S1x800x1024
  shapeCasts_S4x20000x1024_S4x200x100x1024 : S4x20000x1024.ShapeCasts S4x200x100x1024
  dot_S200x640_S640x640_S200x640_1_0_0_1_n_n_wf : DotDims.WF S200x640 S640x640 S200x640 [1] [0] [0] [1] [] []
  dot_S800x640_S640x1024_S800x1024_1_0_0_1_n_n_wf : DotDims.WF S800x640 S640x1024 S800x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x640.size a ≤ S800x640.size a
  hwx0_0 : ∀ i : grid0.Coords, EltTy.bits .f32 = 32 ∨ (Rect.block (s := S800x640) S200x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x640.size a
  hwx0_1 : ∀ i : grid0.Coords, EltTy.bits .f32 = 32 ∨ (Rect.block (s := S640x640) S640x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x640.size a ≤ S800x640.size a
  hwx0_2 : ∀ i : grid0.Coords, EltTy.bits .f32 = 32 ∨ (Rect.block (s := S800x640) S200x640.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x640.size a ≤ S400x640.size a
  hwx1_0 : ∀ i : grid1.Coords, EltTy.bits .f32 = 32 ∨ (Rect.block (s := S400x640) S200x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x640.size a ≤ S640x640.size a
  hwx1_1 : ∀ i : grid1.Coords, EltTy.bits .f32 = 32 ∨ (Rect.block (s := S640x640) S640x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x640.size a ≤ S400x640.size a
  hwx1_2 : ∀ i : grid1.Coords, EltTy.bits .f32 = 32 ∨ (Rect.block (s := S400x640) S200x640.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x640.size a ≤ S4x200x640.size a
  hwx2_0 : ∀ i : grid2.Coords, EltTy.bits .f32 = 32 ∨ (Rect.block (s := S4x200x640) S1x8x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x100x640.size a ≤ S4x100x640.size a
  hwx2_1 : ∀ i : grid2.Coords, EltTy.bits .f32 = 32 ∨ (Rect.block (s := S4x100x640) S1x100x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x640.size a ≤ S1x640.size a
  hwx2_2 : ∀ i : grid2.Coords, EltTy.bits .f32 = 32 ∨ (Rect.block (s := S1x640) S1x640.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S640x1024.size a ≤ S640x1024.size a
  hwx2_3 : ∀ i : grid2.Coords, EltTy.bits .f32 = 32 ∨ (Rect.block (s := S640x1024) S640x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x800x1024.size a ≤ S4x20000x1024.size a
  hwx2_5 : ∀ i : grid2.Coords, EltTy.bits .f32 = 32 ∨ (Rect.block (s := S4x20000x1024) S1x800x1024.size (cc2_transform_5 i) (hinb2_5 i)).WholeWords (EltTy.packing .f32)

variable [Facts₀]

def dot_S200x640_S640x640_S200x640_1_0_0_1_n_n : DotDims S200x640 S640x640 S200x640 where
  lhsContracting := [1]
  rhsContracting := [0]
  lhsNonContracting := [0]
  rhsNonContracting := [1]
  lhsBatch := []
  rhsBatch := []
  wf := dot_S200x640_S640x640_S200x640_1_0_0_1_n_n_wf
def dot_S800x640_S640x1024_S800x1024_1_0_0_1_n_n : DotDims S800x640 S640x1024 S800x1024 where
  lhsContracting := [1]
  rhsContracting := [0]
  lhsNonContracting := [0]
  rhsNonContracting := [1]
  lhsBatch := []
  rhsBatch := []
  wf := dot_S800x640_S640x1024_S800x1024_1_0_0_1_n_n_wf

abbrev win0_0 : Pipeline.Window sig grid0 :=
  Pipeline.Window.ofSpec (Memref.whole main_v2) S200x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S640x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S200x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S200x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S640x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S200x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1x8x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x100x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x640.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S640x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x800x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x200x640 : Shape := ⟨3, ![4, 200, 640]⟩
abbrev S4x100x640 : Shape := ⟨3, ![4, 100, 640]⟩
abbrev S1280x640 : Shape := ⟨2, ![1280, 640]⟩
abbrev S640 : Shape := ⟨1, ![640]⟩
abbrev S640x1024 : Shape := ⟨2, ![640, 1024]⟩
abbrev S1024 : Shape := ⟨1, ![1024]⟩
abbrev S640x640 : Shape := ⟨2, ![640, 640]⟩
abbrev S4x200x1x640 : Shape := ⟨4, ![4, 200, 1, 640]⟩
abbrev S4x1x100x640 : Shape := ⟨4, ![4, 1, 100, 640]⟩
abbrev S4x200x100x640 : Shape := ⟨4, ![4, 200, 100, 640]⟩
abbrev S1x1x1x640 : Shape := ⟨4, ![1, 1, 1, 640]⟩
abbrev S_ : Shape := ⟨0, ![]⟩
abbrev S4x200x100x1024 : Shape := ⟨4, ![4, 200, 100, 1024]⟩
abbrev S1x1x1x1024 : Shape := ⟨4, ![1, 1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x200x640, .f32⟩
  | .hbm, ⟨1, _⟩ => ⟨S4x100x640, .f32⟩
  | .hbm, ⟨2, _⟩ => ⟨S1280x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S640x640, .f32⟩
  | .hbm, ⟨7, _⟩ => ⟨S640x640, .f32⟩
  | .hbm, ⟨8, _⟩ => ⟨S4x200x640, .f32⟩
  | .hbm, ⟨9, _⟩ => ⟨S4x100x640, .f32⟩
  | .hbm, ⟨10, _⟩ => ⟨S4x200x1x640, .f32⟩
  | .hbm, ⟨11, _⟩ => ⟨S4x1x100x640, .f32⟩
  | .hbm, ⟨12, _⟩ => ⟨S4x200x100x640, .f32⟩
  | .hbm, ⟨13, _⟩ => ⟨S4x200x100x640, .f32⟩
  | .hbm, ⟨14, _⟩ => ⟨S4x200x100x640, .f32⟩
  | .hbm, ⟨15, _⟩ => ⟨S1x1x1x640, .f32⟩
  | .hbm, ⟨16, _⟩ => ⟨S4x200x100x640, .f32⟩
  | .hbm, ⟨17, _⟩ => ⟨S4x200x100x640, .f32⟩
  | .hbm, ⟨18, _⟩ => ⟨S4x200x100x640, .f32⟩
  | .hbm, ⟨19, _⟩ => ⟨S4x200x100x640, .f32⟩
  | .hbm, ⟨20, _⟩ => ⟨S_, .f32⟩
  | .hbm, ⟨21, _⟩ => ⟨S4x200x100x640, .f32⟩
  | .hbm, ⟨22, _⟩ => ⟨S4x200x100x640, .f32⟩
  | .hbm, ⟨23, _⟩ => ⟨S_, .f32⟩
  | .hbm, ⟨24, _⟩ => ⟨S4x200x100x640, .f32⟩
  | .hbm, ⟨25, _⟩ => ⟨S4x200x100x640, .f32⟩
  | .hbm, ⟨26, _⟩ => ⟨S4x200x100x640, .f32⟩
  | .hbm, ⟨27, _⟩ => ⟨S4x200x100x1024, .f32⟩
  | .hbm, ⟨28, _⟩ => ⟨S1x1x1x1024, .f32⟩
  | .hbm, ⟨29, _⟩ => ⟨S4x200x100x1024, .f32⟩
  | .hbm, ⟨30, _⟩ => ⟨S4x200x100x1024, .f32⟩
  | _, _ => ⟨S4x200x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  slices_S1280x640_S640x640_0_0 : S1280x640.Slices ![0, 0] S640x640
  slices_S1280x640_S640x640_640_0 : S1280x640.Slices ![640, 0] S640x640
  bcast_S4x200x640_S4x200x1x640_0_1_3 : S4x200x640.BroadcastsInDim S4x200x1x640 (![0, 1, 3] : Fin 3 → Fin S4x200x1x640.rank)
  bcast_S4x100x640_S4x1x100x640_0_2_3 : S4x100x640.BroadcastsInDim S4x1x100x640 (![0, 2, 3] : Fin 3 → Fin S4x1x100x640.rank)
  bcast_S4x200x1x640_S4x200x100x640_0_1_2_3 : S4x200x1x640.BroadcastsInDim S4x200x100x640 (![0, 1, 2, 3] : Fin 4 → Fin S4x200x100x640.rank)
  bcast_S4x1x100x640_S4x200x100x640_0_1_2_3 : S4x1x100x640.BroadcastsInDim S4x200x100x640 (![0, 1, 2, 3] : Fin 4 → Fin S4x200x100x640.rank)
  bcast_S640_S1x1x1x640_3 : S640.BroadcastsInDim S1x1x1x640 (![3] : Fin 1 → Fin S1x1x1x640.rank)
  bcast_S1x1x1x640_S4x200x100x640_0_1_2_3 : S1x1x1x640.BroadcastsInDim S4x200x100x640 (![0, 1, 2, 3] : Fin 4 → Fin S4x200x100x640.rank)
  bcast_S_S4x200x100x640 : S_.BroadcastsInDim S4x200x100x640 (![] : Fin 0 → Fin S4x200x100x640.rank)
  bcast_S1024_S1x1x1x1024_3 : S1024.BroadcastsInDim S1x1x1x1024 (![3] : Fin 1 → Fin S1x1x1x1024.rank)
  bcast_S1x1x1x1024_S4x200x100x1024_0_1_2_3 : S1x1x1x1024.BroadcastsInDim S4x200x100x1024 (![0, 1, 2, 3] : Fin 4 → Fin S4x200x100x1024.rank)
  dot_S4x200x640_S640x640_S4x200x640_2_0_01_1_n_n_wf : DotDims.WF S4x200x640 S640x640 S4x200x640 [2] [0] [0, 1] [1] [] []
  dot_S4x100x640_S640x640_S4x100x640_2_0_01_1_n_n_wf : DotDims.WF S4x100x640 S640x640 S4x100x640 [2] [0] [0, 1] [1] [] []
  dot_S4x200x100x640_S640x1024_S4x200x100x1024_3_0_012_1_n_n_wf : DotDims.WF S4x200x100x640 S640x1024 S4x200x100x1024 [3] [0] [0, 1, 2] [1] [] []

variable [Facts₀]

def dot_S4x200x640_S640x640_S4x200x640_2_0_01_1_n_n : DotDims S4x200x640 S640x640 S4x200x640 where
  lhsContracting := [2]
  rhsContracting := [0]
  lhsNonContracting := [0, 1]
  rhsNonContracting := [1]
  lhsBatch := []
  rhsBatch := []
  wf := dot_S4x200x640_S640x640_S4x200x640_2_0_01_1_n_n_wf
def dot_S4x100x640_S640x640_S4x100x640_2_0_01_1_n_n : DotDims S4x100x640 S640x640 S4x100x640 where
  lhsContracting := [2]
  rhsContracting := [0]
  lhsNonContracting := [0, 1]
  rhsNonContracting := [1]
  lhsBatch := []
  rhsBatch := []
  wf := dot_S4x100x640_S640x640_S4x100x640_2_0_01_1_n_n_wf
def dot_S4x200x100x640_S640x1024_S4x200x100x1024_3_0_012_1_n_n : DotDims S4x200x100x640 S640x1024 S4x200x100x1024 where
  lhsContracting := [3]
  rhsContracting := [0]
  lhsNonContracting := [0, 1, 2]
  rhsNonContracting := [1]
  lhsBatch := []
  rhsBatch := []
  wf := dot_S4x200x100x640_S640x1024_S4x200x100x1024_3_0_012_1_n_n_wf

class Facts : Prop extends Facts₀ where

variable [Facts]
-- ==== Proof.KernelRun.lean ====
/-
  The idealized kernel's run with its result array NAMED.

  @main is six segments: the host's slices and reshapes of the arguments, the two projection pallas_calls, the
  host's reshapes of their results and of the two biases, the joint pallas_call, and the final reshape. The run
  through these segments ends with every unscoped buffer at the last boundary's contents, the fold `Gen.W6` of the
  segments over the launch memory. Read at the result buffer this names what the program returns; read at the six
  arguments it gives back the launch contents.
-/
import proofs.«146770_j46170898432387_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the memory `m` terminates without a fault; the result buffer ends at
    the last boundary's contents `W6` read at it, and each argument as launched. -/
theorem run_named : θ_run defs (onTc (τ := τ) (main (F := F))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v11 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.JointSpec.lean ====
/-
  The joint network's output as ONE function of its six argument arrays, over the extended reals.

  With `enc : [4, 200, 640]`, `pred : [4, 100, 640]`, the stacked weights `w1 : [1280, 640]` (rows 0..639 act on
  `enc`, rows 640..1279 on `pred`), the bias `b1 : [640]`, the output weights `w2 : [640, 1024]` and the output
  bias `b2 : [1024]`:

    hidden (b, t, u, j) = (Σ_k enc (b, t, k) · w1 (k, j)) + (Σ_k pred (b, u, k) · w1 (640 + k, j)) + b1 j
    logit  (b, t, u, v) = (Σ_j silu (hidden (b, t, u, j)) · w2 (j, v)) + b2 v

  where `silu x = x · (1 / (1 + e^(-x)))`. Both programs compute exactly this function: they differ in how the
  rows are tiled and in how the logistic factor is spelt, not in the order of any sum or of the two additions.
-/
import Idealize.ShloMosaic.Lib.ValueIdx
import Idealize.ShloMosaic.PureOps.Ideal

noncomputable section

open scoped BigOperators

namespace Cert.JointSpec

open Idealize.ShloMosaic Idealize.ShloMosaic.ValueIdx

/-- Row `k` of the upper half of the stacked weight matrix (the rows that act on `enc`). -/
def rowLo (k : Fin 640) : Fin 1280 := ⟨k.val, by have := k.isLt; omega⟩
/-- Row `640 + k` of the stacked weight matrix (the rows that act on `pred`). -/
def rowHi (k : Fin 640) : Fin 1280 := ⟨640 + k.val, by have := k.isLt; omega⟩

/-- `x · logistic x` on the extended reals. -/
def silu (x : EReal) : EReal := x * Ideal.logistic x

/-- The projection of row `(b, t)` of `enc` by the upper half of `w1`, at column `j`. -/
def encProj (enc : (⟨3, ![4, 200, 640]⟩ : Shape).Idx → EReal) (w1 : (⟨2, ![1280, 640]⟩ : Shape).Idx → EReal)
    (b : Fin 4) (t : Fin 200) (j : Fin 640) : EReal :=
  ∑ k : Fin 640, enc (ix3 b t k) * w1 (ix2 (rowLo k) j)

/-- The projection of row `(b, u)` of `pred` by the lower half of `w1`, at column `j`. -/
def predProj (pred : (⟨3, ![4, 100, 640]⟩ : Shape).Idx → EReal) (w1 : (⟨2, ![1280, 640]⟩ : Shape).Idx → EReal)
    (b : Fin 4) (u : Fin 100) (j : Fin 640) : EReal :=
  ∑ k : Fin 640, pred (ix3 b u k) * w1 (ix2 (rowHi k) j)

/-- The hidden pre-activation at `(b, t, u, j)`: the two projections added, then the bias. -/
def hidden (enc : (⟨3, ![4, 200, 640]⟩ : Shape).Idx → EReal) (pred : (⟨3, ![4, 100, 640]⟩ : Shape).Idx → EReal)
    (w1 : (⟨2, ![1280, 640]⟩ : Shape).Idx → EReal) (b1 : (⟨1, ![640]⟩ : Shape).Idx → EReal)
    (b : Fin 4) (t : Fin 200) (u : Fin 100) (j : Fin 640) : EReal :=
  encProj enc w1 b t j + predProj pred w1 b u j + b1 (ix1 j)

/-- The output at `(b, t, u, v)`. -/
def logitAt (enc : (⟨3, ![4, 200, 640]⟩ : Shape).Idx → EReal) (pred : (⟨3, ![4, 100, 640]⟩ : Shape).Idx → EReal)
    (w1 : (⟨2, ![1280, 640]⟩ : Shape).Idx → EReal) (b1 : (⟨1, ![640]⟩ : Shape).Idx → EReal)
    (w2 : (⟨2, ![640, 1024]⟩ : Shape).Idx → EReal) (b2 : (⟨1, ![1024]⟩ : Shape).Idx → EReal)
    (b : Fin 4) (t : Fin 200) (u : Fin 100) (v : Fin 1024) : EReal :=
  (∑ j : Fin 640, silu (hidden enc pred w1 b1 b t u j) * w2 (ix2 j v)) + b2 (ix1 v)

/-- The whole output array. -/
def logits (enc : (⟨3, ![4, 200, 640]⟩ : Shape).Idx → EReal) (pred : (⟨3, ![4, 100, 640]⟩ : Shape).Idx → EReal)
    (w1 : (⟨2, ![1280, 640]⟩ : Shape).Idx → EReal) (b1 : (⟨1, ![640]⟩ : Shape).Idx → EReal)
    (w2 : (⟨2, ![640, 1024]⟩ : Shape).Idx → EReal) (b2 : (⟨1, ![1024]⟩ : Shape).Idx → EReal) :
    (⟨4, ![4, 200, 100, 1024]⟩ : Shape).Idx → EReal :=
  fun i => logitAt enc pred w1 b1 w2 b2 (i 0) (i 1) (i 2) (i 3)

/-- The float word of `1.0` denotes the real number one. -/
theorem ofBits_one : Ideal.ofBits .f32 0x3F800000#32 = (1 : EReal) := by
  simp [Ideal.ofBits, Ideal.ieee, -EReal.coe_mul]; norm_num

/-- The logistic factor spelt with the float word of `1.0`, a negation, an exponential, a sum and a quotient is
    the logistic function. -/
theorem logistic_spelt (x : EReal) :
    Ideal.div (Ideal.ofBits .f32 0x3F800000#32) (Ideal.ofBits .f32 0x3F800000#32 + Ideal.exp (-x)) = Ideal.logistic x := by
  rw [ofBits_one]; rfl

end Cert.JointSpec

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.ProjRegions.lean ====
/-
  What the two projection calls leave in their output arrays, over the extended reals.

  Each call runs one body over a one-axis grid: at point `t` it reads rows `200 t … 200 t + 199` of its left
  array `x` and the whole `640 × 640` matrix `w`, and writes the product of the two into the same rows of its
  output array. The narrowing format changes of the operands are the identity on the extended reals and the
  accumulator is the zero constant, so the entry `(r, j)` of the block written is `Σ_k x (r, k) · w (k, j)`.
  The row blocks of the grid's points tile the output array, so after the run the whole output array is the
  matrix product of the two input arrays as the call found them:

    out (i, j) = Σ_k x (i, k) · w (k, j).

  The first call has four points (`800` rows), the second two (`400` rows).
-/
import proofs.«146770_j46170898432387_2_alg».proof.Proof.Gen.KernelIdeal.Frame
import proofs.«146770_j46170898432387_2_alg».proof.Proof.LibContractPlain
import Idealize.ShloMosaic.Lib.Pipeline.Value
import Idealize.ShloMosaic.Lib.ValueIdx
import Idealize.ShloMosaic.PureOps.Ideal.Laws

noncomputable section

open scoped BigOperators

namespace Cert.KernelIdeal.ProjValue

open Cert.KernelIdeal Cert.KernelIdeal.Gen Idealize.ShloMosaic Idealize.ShloMosaic.TcCoe Idealize.SL.Sem Idealize.ShloMosaic.ValueIdx
open Idealize.ShloMosaic.Pipeline (Dat)

/-! ## The body's value -/

/-- The expression both bodies store, read at the entry `(r, j)`: the same-shape casts and the narrowing format
    changes of the two operands are the identity on the extended reals, and the product accumulated into the zero
    constant is the sum over the shared coordinate. -/
theorem product_apply (x : FVec Ideal S200x640 .f32) (w : FVec Ideal S640x640 .f32) (r : Fin 200) (j : Fin 640) :
    matmul dot_S200x640_S640x640_S200x640_1_0_0_1_n_n none
        (truncf .bf16 (shapeCast S200x640 x shapeCasts_S200x640_S200x640) bitsLt_bf16_f32)
        (truncf .bf16 (shapeCast S640x640 w shapeCasts_S640x640_S640x640) bitsLt_bf16_f32)
        (constant (F := Ideal) S200x640 .f32 0x00000000#32) (ix2 r j)
      = ∑ k : Fin 640, x (ix2 r k) * w (ix2 k j) := by
  rw [shapeCast_self, shapeCast_self]
  exact LibContractPlain.matmulPlain_zero_apply 200 640 640 dot_S200x640_S640x640_S200x640_1_0_0_1_n_n_wf none
    (truncf .bf16 x bitsLt_bf16_f32) (truncf .bf16 w bitsLt_bf16_f32) r j

/-- The first call's payload at `(r, j)`. -/
theorem payload0_apply (x : FVec Ideal S200x640 .f32) (w : FVec Ideal S640x640 .f32) (r : Fin 200) (j : Fin 640) :
    k0_pay1 (F := Ideal) x w (ix2 r j) = ∑ k : Fin 640, x (ix2 r k) * w (ix2 k j) :=
  product_apply x w r j

/-- The second call's payload at `(r, j)`: the same expression. -/
theorem payload1_apply (x : FVec Ideal S200x640 .f32) (w : FVec Ideal S640x640 .f32) (r : Fin 200) (j : Fin 640) :
    k1_pay1 (F := Ideal) x w (ix2 r j) = ∑ k : Fin 640, x (ix2 r k) * w (ix2 k j) :=
  product_apply x w r j

/-! ## The matrix product of arrays -/

/-- The matrix product of an `R × 640` array by a `640 × 640` one: entry `(i, j)` is `Σ_k x (i, k) · w (k, j)`. -/
def rowsProduct (R : Nat) (x : (⟨2, ![R, 640]⟩ : Shape).Idx → EReal) (w : S640x640.Idx → EReal) :
    (⟨2, ![R, 640]⟩ : Shape).Idx → EReal :=
  fun i => ∑ k : Fin 640, x (ix2 (i 0) k) * w (ix2 k (i 1))

/-- The product read at an index: by definition. -/
theorem rowsProduct_apply (R : Nat) (x : (⟨2, ![R, 640]⟩ : Shape).Idx → EReal) (w : S640x640.Idx → EReal)
    (i : (⟨2, ![R, 640]⟩ : Shape).Idx) :
    rowsProduct R x w i = ∑ k : Fin 640, x (ix2 (i 0) k) * w (ix2 k (i 1)) := rfl

/-- The product read at the entry `(a, j)`. -/
theorem rowsProduct_ix2 (R : Nat) (x : (⟨2, ![R, 640]⟩ : Shape).Idx → EReal) (w : S640x640.Idx → EReal)
    (a : Fin R) (j : Fin 640) :
    rowsProduct R x w (ix2 a j) = ∑ k : Fin 640, x (ix2 a k) * w (ix2 k j) := rfl

/-- The zero offsets of a whole-buffer access, as a constant function. -/
theorem offsets_zero : (![0, 0] : Fin 2 → Nat) = fun _ => 0 := funext fun a => by fin_cases a <;> rfl

/-! ## The first call: `800` rows in four blocks of `200` -/

/-- The printed index maps of the first call, decided over its four points: the left operand's row block is the
    output's, the matrix is read whole at every point, no block index on the column axis moves, and the output's row
    block index stays below four. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 3
    ∧ win0_2.index t (1 : Fin 2) = 0 :=
  (by decide +kernel : ∀ t : Fin grid0.N, _)

/-- Every row block of the output is some point's. -/
theorem blocks0_onto : ∀ q : Fin 4, ∃ t : Fin cfg0.N, win0_2.index t = ![q.val, 0] :=
  (by decide +kernel : ∀ q : Fin 4, ∃ t : Fin grid0.N, win0_2.index t = ![q.val, 0])

/-- The product of point `t`'s two input blocks, at the entry `(r, j)` of the block, is the product of the two whole
    arrays at the array entry under it: the left block's rows are the output block's rows of the left array, and the
    right block is the whole matrix. A block's entry sits in its array, on each axis, at the block index times the
    block's extent plus its own coordinate. -/
theorem block0_product (X : S800x640.Idx → EReal) (W : S640x640.Idx → EReal) (t : Fin cfg0.N) (r : Fin 200) (j : Fin 640) :
    ∑ k : Fin 640, X (((cfg0.win 0).blk t).view.emb (ix2 r k)) * W (((cfg0.win 1).blk t).view.emb (ix2 k j))
      = rowsProduct 800 X W (((cfg0.win 2).blk t).view.emb (ix2 r j)) := by
  obtain ⟨e0, e1, e2, e3, e4, e5⟩ := blocks0 t
  have hr : r.val < 200 := r.isLt
  have hR : win0_2.index t (0 : Fin 2) * 200 + r.val < 800 := by omega
  have hout : ((cfg0.win 2).blk t).view.emb (ix2 r j) = ix2 (⟨win0_2.index t (0 : Fin 2) * 200 + r.val, hR⟩ : Fin 800) j := by
    funext a; apply Fin.ext
    match a with
    | ⟨0, _⟩ => show win0_2.index t (0 : Fin 2) * 200 + 1 * r.val = win0_2.index t (0 : Fin 2) * 200 + r.val; omega
    | ⟨1, _⟩ => show win0_2.index t (1 : Fin 2) * 640 + 1 * j.val = j.val; omega
  have hx : ∀ k : Fin 640, ((cfg0.win 0).blk t).view.emb (ix2 r k) = ix2 (⟨win0_2.index t (0 : Fin 2) * 200 + r.val, hR⟩ : Fin 800) k := by
    intro k; funext a; apply Fin.ext
    match a with
    | ⟨0, _⟩ => show win0_0.index t (0 : Fin 2) * 200 + 1 * r.val = win0_2.index t (0 : Fin 2) * 200 + r.val; omega
    | ⟨1, _⟩ => show win0_0.index t (1 : Fin 2) * 640 + 1 * k.val = k.val; omega
  have hw : ∀ k : Fin 640, ((cfg0.win 1).blk t).view.emb (ix2 k j) = ix2 k j := by
    intro k; funext a; apply Fin.ext
    match a with
    | ⟨0, _⟩ => show win0_1.index t (0 : Fin 2) * 640 + 1 * k.val = k.val; omega
    | ⟨1, _⟩ => show win0_1.index t (1 : Fin 2) * 640 + 1 * j.val = j.val; omega
  rw [hout, rowsProduct_ix2]
  exact Finset.sum_congr rfl fun k _ => by rw [hx k, hw k]

/-- What point `t` writes back is its row block of the matrix product of the two arrays as the call finds them. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (rowsProduct 800 (V c main_v2) (V c main_v0)) := by
  show (cfg0.win 2).cut (grid0.coords t) ((dat0 (F := Ideal) V c).after 2 t) = _
  rw [after0_2]
  unfold out0_2
  rw [View.canon_unit_zero offsets_zero]
  simp only [View.ld_unit_zero (S := S200x640) offsets_zero, View.ld_unit_zero (S := S640x640) offsets_zero]
  funext y
  obtain ⟨r, j, rfl⟩ : ∃ (r : Fin 200) (j : Fin 640), y = ix2 r j := ⟨y 0, y 1, eq_ix2 y⟩
  show k0_pay1 (F := Ideal) (iblk0 V c 0 t) (iblk0 V c 1 t) (ix2 r j)
      = rowsProduct 800 (V c main_v2) (V c main_v0) (((cfg0.win 2).blk t).view.emb (ix2 r j))
  rw [payload0_apply]
  exact block0_product (V c main_v2) (V c main_v0) t r j

/-- An index of the output array is in point `t`'s block iff each coordinate is in the block's range on its axis. -/
theorem mem_block0 (t : Fin cfg0.N) (i : S800x640.Idx) :
    i ∈ ((cfg0.win 2).blk t).view.set ↔ ∀ a : Fin 2, win0_2.index t a * S200x640.size a ≤ (i a).val ∧ (i a).val < win0_2.index t a * S200x640.size a + S200x640.size a := by
  show i ∈ ((View.whole main_v4).slice (win0_2.rect t)).set ↔ _
  rw [View.set_slice_whole, Rect.mem_set_unit]
  exact Iff.rfl

/-- The four row blocks cover the output array: row `r` lies in the block of the point whose row block index is
    `r / 200`, and every point writes its block back. -/
theorem cover0 (i : S800x640.Idx) :
    ∃ t : Fin cfg0.N, (cfg0.win 2).flush t = true ∧ i ∈ ((cfg0.win 2).blk t).view.set := by
  have hi0 : (i 0).val < 800 := (i 0).isLt
  have hi1 : (i 1).val < 640 := (i 1).isLt
  obtain ⟨t, ht⟩ := blocks0_onto ⟨(i 0).val / 200, by omega⟩
  have q0 : win0_2.index t (0 : Fin 2) = (i 0).val / 200 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 640 ≤ (i 1).val ∧ (i 1).val < win0_2.index t (1 : Fin 2) * 640 + 640; omega

/-- THE FIRST CALL'S OUTPUT ARRAY after the run: the matrix product of its two input arrays as the call found them. -/
theorem region0_array (V : (c : Dev nD) → (b : Ref sig .tc) → Buf (Elt Ideal) ((c : Thread nD τ).loc b)) (c : Dev nD) :
    (Gen.dat0 (F := Ideal) V c).arrAt 2 cfg0.N = rowsProduct 800 (V c main_v2) (V c main_v0) :=
  (dat0 (F := Ideal) V c).arrAt_eq_of_cover 2 (rowsProduct 800 (V c main_v2) (V c main_v0)) (fun t _ => flushed0_eq V c t) cover0

/-! ## The second call: `400` rows in two blocks of `200` -/

/-- The printed index maps of the second call, decided over its two points: the left operand's row block is the
    output's, the matrix is read whole at every point, no block index on the column axis moves, and the output's row
    block index stays below two. -/
theorem blocks1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 1
    ∧ win1_2.index t (1 : Fin 2) = 0 :=
  (by decide +kernel : ∀ t : Fin grid1.N, _)

/-- Every row block of the output is some point's. -/
theorem blocks1_onto : ∀ q : Fin 2, ∃ t : Fin cfg1.N, win1_2.index t = ![q.val, 0] :=
  (by decide +kernel : ∀ q : Fin 2, ∃ t : Fin grid1.N, win1_2.index t = ![q.val, 0])

/-- The product of point `t`'s two input blocks, at the entry `(r, j)` of the block, is the product of the two whole
    arrays at the array entry under it, as for the first call. -/
theorem block1_product (X : S400x640.Idx → EReal) (W : S640x640.Idx → EReal) (t : Fin cfg1.N) (r : Fin 200) (j : Fin 640) :
    ∑ k : Fin 640, X (((cfg1.win 0).blk t).view.emb (ix2 r k)) * W (((cfg1.win 1).blk t).view.emb (ix2 k j))
      = rowsProduct 400 X W (((cfg1.win 2).blk t).view.emb (ix2 r j)) := by
  obtain ⟨e0, e1, e2, e3, e4, e5⟩ := blocks1 t
  have hr : r.val < 200 := r.isLt
  have hR : win1_2.index t (0 : Fin 2) * 200 + r.val < 400 := by omega
  have hout : ((cfg1.win 2).blk t).view.emb (ix2 r j) = ix2 (⟨win1_2.index t (0 : Fin 2) * 200 + r.val, hR⟩ : Fin 400) j := by
    funext a; apply Fin.ext
    match a with
    | ⟨0, _⟩ => show win1_2.index t (0 : Fin 2) * 200 + 1 * r.val = win1_2.index t (0 : Fin 2) * 200 + r.val; omega
    | ⟨1, _⟩ => show win1_2.index t (1 : Fin 2) * 640 + 1 * j.val = j.val; omega
  have hx : ∀ k : Fin 640, ((cfg1.win 0).blk t).view.emb (ix2 r k) = ix2 (⟨win1_2.index t (0 : Fin 2) * 200 + r.val, hR⟩ : Fin 400) k := by
    intro k; funext a; apply Fin.ext
    match a with
    | ⟨0, _⟩ => show win1_0.index t (0 : Fin 2) * 200 + 1 * r.val = win1_2.index t (0 : Fin 2) * 200 + r.val; omega
    | ⟨1, _⟩ => show win1_0.index t (1 : Fin 2) * 640 + 1 * k.val = k.val; omega
  have hw : ∀ k : Fin 640, ((cfg1.win 1).blk t).view.emb (ix2 k j) = ix2 k j := by
    intro k; funext a; apply Fin.ext
    match a with
    | ⟨0, _⟩ => show win1_1.index t (0 : Fin 2) * 640 + 1 * k.val = k.val; omega
    | ⟨1, _⟩ => show win1_1.index t (1 : Fin 2) * 640 + 1 * j.val = j.val; omega
  rw [hout, rowsProduct_ix2]
  exact Finset.sum_congr rfl fun k _ => by rw [hx k, hw k]

/-- What point `t` writes back is its row block of the matrix product of the two arrays as the call finds them. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (rowsProduct 400 (V c main_v3) (V c main_v1)) := by
  show (cfg1.win 2).cut (grid1.coords t) ((dat1 (F := Ideal) V c).after 2 t) = _
  rw [after1_2]
  unfold out1_2
  rw [View.canon_unit_zero offsets_zero]
  simp only [View.ld_unit_zero (S := S200x640) offsets_zero, View.ld_unit_zero (S := S640x640) offsets_zero]
  funext y
  obtain ⟨r, j, rfl⟩ : ∃ (r : Fin 200) (j : Fin 640), y = ix2 r j := ⟨y 0, y 1, eq_ix2 y⟩
  show k1_pay1 (F := Ideal) (iblk1 V c 0 t) (iblk1 V c 1 t) (ix2 r j)
      = rowsProduct 400 (V c main_v3) (V c main_v1) (((cfg1.win 2).blk t).view.emb (ix2 r j))
  rw [payload1_apply]
  exact block1_product (V c main_v3) (V c main_v1) t r j

/-- An index of the output array is in point `t`'s block iff each coordinate is in the block's range on its axis. -/
theorem mem_block1 (t : Fin cfg1.N) (i : S400x640.Idx) :
    i ∈ ((cfg1.win 2).blk t).view.set ↔ ∀ a : Fin 2, win1_2.index t a * S200x640.size a ≤ (i a).val ∧ (i a).val < win1_2.index t a * S200x640.size a + S200x640.size a := by
  show i ∈ ((View.whole main_v5).slice (win1_2.rect t)).set ↔ _
  rw [View.set_slice_whole, Rect.mem_set_unit]
  exact Iff.rfl

/-- The two row blocks cover the output array: row `r` lies in the block of the point whose row block index is
    `r / 200`, and every point writes its block back. -/
theorem cover1 (i : S400x640.Idx) :
    ∃ t : Fin cfg1.N, (cfg1.win 2).flush t = true ∧ i ∈ ((cfg1.win 2).blk t).view.set := by
  have hi0 : (i 0).val < 400 := (i 0).isLt
  have hi1 : (i 1).val < 640 := (i 1).isLt
  obtain ⟨t, ht⟩ := blocks1_onto ⟨(i 0).val / 200, by omega⟩
  have q0 : win1_2.index t (0 : Fin 2) = (i 0).val / 200 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 200 ≤ (i 0).val ∧ (i 0).val < win1_2.index t (0 : Fin 2) * 200 + 200; omega
  | ⟨1, _⟩ => show win1_2.index t (1 : Fin 2) * 640 ≤ (i 1).val ∧ (i 1).val < win1_2.index t (1 : Fin 2) * 640 + 640; omega

/-- THE SECOND CALL'S OUTPUT ARRAY after the run: the matrix product of its two input arrays as the call found them. -/
theorem region1_array (V : (c : Dev nD) → (b : Ref sig .tc) → Buf (Elt Ideal) ((c : Thread nD τ).loc b)) (c : Dev nD) :
    (Gen.dat1 (F := Ideal) V c).arrAt 2 cfg1.N = rowsProduct 400 (V c main_v3) (V c main_v1) :=
  (dat1 (F := Ideal) V c).arrAt_eq_of_cover 2 (rowsProduct 400 (V c main_v3) (V c main_v1)) (fun t _ => flushed1_eq V c t) cover1

end Cert.KernelIdeal.ProjValue

end
-- ==== Proof.LibUnitAxes.lean ====
/-
  Layout operations with a unit axis in the middle, and the four-axis regrouping of a matrix's rows, each read at
  an index and generic in the sizes.

  * An `[a, b]` array cast to `[a, 1, b]` reads the operand at `(i, j)`; an `[a, 1, b]` array broadcast to
    `[a, c, b]` reads it at `(i, 0, j)`: the middle axis is the repeated one.
  * A `[c]` vector cast to `[1, c, 1]` reads the vector at its middle coordinate; a `[1, c, 1]` array broadcast to
    `[a, c, b]` reads it at `(0, g, 0)`: only the middle coordinate survives.
  * An `[n, d]` matrix whose rows are regrouped as `[p, q, r, d]` (row `(a * q + b) * r + c` becomes `(a, b, c)`),
    the regrouping undone, and the exchange of the two middle axes of a four-axis array.
  * Two index pairs with equal coordinates are the same index.
-/
import Idealize.ShloMosaic.Lib.ValueIdx
import Idealize.ShloMosaic.Lib.Pipeline.Value
import Idealize.ShloMosaic.Lib.ValueLayout

noncomputable section

namespace Cert.LibUnitAxes

open Idealize.ShloMosaic Idealize.ShloMosaic.ValueIdx

variable {α : Type}

/-- Two matrix indices with the same row number and the same column number are equal. -/
theorem ix2_congr {n0 n1 : ℕ} {p p' : Fin n0} {q q' : Fin n1} (hp : p.val = p'.val) (hq : q.val = q'.val) :
    (ix2 p q : (⟨2, ![n0, n1]⟩ : Shape).Idx) = ix2 p' q' := by
  rw [Fin.ext hp, Fin.ext hq]

/-- An `[a, b]` array cast to `[a, 1, b]` reads, at `(i, u, j)`, the operand at `(i, j)`: both positions are
    `i * b + j` in row-major order. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, g, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (g : Fin c) (j : Fin b) :
    broadcastTo ⟨3, ![a, c, b]⟩ v h (ix3 i g j) = v (ix3 i (0 : Fin 1) j) := by
  refine broadcastTo_apply v h (ix3 i g j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[c]` vector cast to `[1, c, 1]` reads, at `(u, g, w)`, the vector at `g`. -/
theorem shapeCast_c_1c1_apply {c : ℕ} (x : (⟨1, ![c]⟩ : Shape).Idx → α)
    (h : (⟨1, ![c]⟩ : Shape).ShapeCasts ⟨3, ![1, c, 1]⟩) (u : Fin 1) (g : Fin c) (w : Fin 1) :
    shapeCast ⟨3, ![1, c, 1]⟩ x h (ix3 u g w) = x (ix1 g) :=
  shapeCast_apply x h _ _ (by
    have hu : u.val = 0 := by omega
    have hw : w.val = 0 := by omega
    rw [Shape.rowMajor_val_three, Shape.rowMajor_val_one]
    show g.val = (u.val * c + g.val) * 1 + w.val
    rw [hu, hw, Nat.zero_mul, Nat.zero_add, Nat.mul_one, Nat.add_zero])

/-- A `[1, c, 1]` array broadcast to `[a, c, b]` reads, at `(i, g, j)`, the operand at `(0, g, 0)`. -/
theorem broadcastTo_1c1_acb_apply {a b c : ℕ} (v : (⟨3, ![1, c, 1]⟩ : Shape).Idx → α)
    (h : (⟨3, ![1, c, 1]⟩ : Shape).Broadcasts ⟨3, ![a, c, b]⟩) (i : Fin a) (g : Fin c) (j : Fin b) :
    broadcastTo ⟨3, ![a, c, b]⟩ v h (ix3 i g j) = v (ix3 (0 : Fin 1) g (0 : Fin 1)) := by
  refine broadcastTo_apply v h (ix3 i g j) (ix3 (0 : Fin 1) g (0 : Fin 1)) fun ax => ?_
  match ax with
  | ⟨0, _⟩ => rfl
  | ⟨1, _⟩ =>
    show g.val = if c = 1 then 0 else g.val
    split
    · have := g.isLt; omega
    · rfl
  | ⟨2, _⟩ => rfl

/-- An `[n, d]` matrix with its rows regrouped as `[p, q, r, d]` reads, at `(a, b, c, e)`, the matrix at row
    `(a * q + b) * r + c` and column `e`. -/
theorem shapeCast_nd_pqrd_apply {n p q r d : ℕ} (x : (⟨2, ![n, d]⟩ : Shape).Idx → α)
    (h : (⟨2, ![n, d]⟩ : Shape).ShapeCasts ⟨4, ![p, q, r, d]⟩) (a : Fin p) (b : Fin q) (c : Fin r) (e : Fin d)
    (k : Fin n) (hk : k.val = (a.val * q + b.val) * r + c.val) :
    shapeCast ⟨4, ![p, q, r, d]⟩ x h (ix4 a b c e) = x (ix2 k e) :=
  shapeCast_apply x h _ _ (by
    rw [Shape.rowMajor_val_four, Shape.rowMajor_val_two]
    show k.val * d + e.val = ((a.val * q + b.val) * r + c.val) * d + e.val
    rw [hk])

/-- A `[p, q, r, d]` array with its first three axes merged into the rows of an `[n, d]` matrix reads, at row
    `(a * q + b) * r + c` and column `e`, the array at `(a, b, c, e)`. -/
theorem shapeCast_pqrd_nd_apply {n p q r d : ℕ} (x : (⟨4, ![p, q, r, d]⟩ : Shape).Idx → α)
    (h : (⟨4, ![p, q, r, d]⟩ : Shape).ShapeCasts ⟨2, ![n, d]⟩) (k : Fin n) (e : Fin d)
    (a : Fin p) (b : Fin q) (c : Fin r) (hk : k.val = (a.val * q + b.val) * r + c.val) :
    shapeCast ⟨2, ![n, d]⟩ x h (ix2 k e) = x (ix4 a b c e) :=
  shapeCast_apply x h _ _ (by
    rw [Shape.rowMajor_val_four, Shape.rowMajor_val_two]
    show ((a.val * q + b.val) * r + c.val) * d + e.val = k.val * d + e.val
    rw [hk])

/-- A four-axis array with its two middle axes exchanged reads, at `(a, c, b, e)`, the operand at `(a, b, c, e)`. -/
theorem transpose_ix4_0213_apply {p q r d : ℕ} (x : (⟨4, ![p, q, r, d]⟩ : Shape).Idx → α)
    (h : (⟨4, ![p, q, r, d]⟩ : Shape).Transposes [0, 2, 1, 3] ⟨4, ![p, r, q, d]⟩)
    (a : Fin p) (c : Fin r) (b : Fin q) (e : Fin d) :
    transpose ⟨4, ![p, r, q, d]⟩ [0, 2, 1, 3] x h (ix4 a c b e) = x (ix4 a b c e) :=
  transpose_apply _ x h _ _ fun z => match z with
    | ⟨0, _⟩ => rfl | ⟨1, _⟩ => rfl | ⟨2, _⟩ => rfl | ⟨3, _⟩ => rfl

end Cert.LibUnitAxes

end
-- ==== Proof.LibRowGroups.lean ====
/-
  Arrays whose rows are grouped, and broadcasts along leading unit axes, each read at an index and generic in the
  sizes.

  * A `[1, b, c]` array broadcast to `[a, b, c]` reads the operand at `(0, g, j)`; a `[1, 1, c]` array broadcast
    to `[a, b, c]` reads it at `(0, 0, j)`: the leading axes are the repeated ones.
  * An `[a, b, c]` array whose two leading axes are merged into the rows of an `[n, c]` matrix reads, at row
    `p * b + q`, the array at `(p, q, ·)`; the same regrouping undone reads the matrix at row `p * b + q`.
  * An `[a, n, c]` array whose middle axis is split as `[a, b, d, c]` reads, at `(i, p, q, j)`, the array at
    `(i, p * d + q, j)`.
-/
import Idealize.ShloMosaic.Lib.ValueIdx
import Idealize.ShloMosaic.Lib.Pipeline.Value

noncomputable section

namespace Cert.LibRowGroups

open Idealize.ShloMosaic Idealize.ShloMosaic.ValueIdx

variable {α : Type}

/-- A `[1, b, c]` array broadcast to `[a, b, c]` reads, at `(i, g, j)`, the operand at `(0, g, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (g : Fin b) (j : Fin c) :
    broadcastTo ⟨3, ![a, b, c]⟩ v h (ix3 i g j) = v (ix3 (0 : Fin 1) g j) := by
  refine broadcastTo_apply v h (ix3 i g j) (ix3 (0 : Fin 1) g j) fun ax => ?_
  match ax with
  | ⟨0, _⟩ => rfl
  | ⟨1, _⟩ =>
    show g.val = if b = 1 then 0 else g.val
    split
    · have := g.isLt; omega
    · rfl
  | ⟨2, _⟩ =>
    show j.val = if c = 1 then 0 else j.val
    split
    · have := j.isLt; omega
    · rfl

/-- A `[1, 1, c]` array broadcast to `[a, b, c]` reads, at `(i, g, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (g : Fin b) (j : Fin c) :
    broadcastTo ⟨3, ![a, b, c]⟩ v h (ix3 i g j) = v (ix3 (0 : Fin 1) (0 : Fin 1) j) := by
  refine broadcastTo_apply v h (ix3 i g j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- An `[a, b, c]` array with its two leading axes merged into the rows of an `[n, c]` matrix reads, at row
    `p * b + q` and column `j`, the array at `(p, q, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (j : Fin c)
    (p : Fin a) (q : Fin b) (hr : r.val = p.val * b + q.val) :
    shapeCast ⟨2, ![n, c]⟩ x h (ix2 r j) = x (ix3 p q j) :=
  shapeCast_apply x h _ _ (by
    rw [Shape.rowMajor_val_three, Shape.rowMajor_val_two]
    show (p.val * b + q.val) * c + j.val = r.val * c + j.val
    rw [hr])

/-- An `[n, c]` matrix with its rows regrouped as `[a, b, c]` reads, at `(p, q, j)`, the matrix at row
    `p * b + q` and column `j`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (j : Fin c)
    (r : Fin n) (hr : r.val = p.val * b + q.val) :
    shapeCast ⟨3, ![a, b, c]⟩ x h (ix3 p q j) = x (ix2 r j) :=
  shapeCast_apply x h _ _ (by
    rw [Shape.rowMajor_val_three, Shape.rowMajor_val_two]
    show r.val * c + j.val = (p.val * b + q.val) * c + j.val
    rw [hr])

/-- An `[a, n, c]` array with its middle axis split as `[a, b, d, c]` (`n = b * d`) reads, at `(i, p, q, j)`, the
    array at `(i, p * d + q, j)`. -/
theorem shapeCast_anc_abdc_apply {a b d c n : ℕ} (x : (⟨3, ![a, n, c]⟩ : Shape).Idx → α)
    (h : (⟨3, ![a, n, c]⟩ : Shape).ShapeCasts ⟨4, ![a, b, d, c]⟩) (i : Fin a) (p : Fin b) (q : Fin d) (j : Fin c)
    (r : Fin n) (hn : n = b * d) (hr : r.val = p.val * d + q.val) :
    shapeCast ⟨4, ![a, b, d, c]⟩ x h (ix4 i p q j) = x (ix3 i r j) :=
  shapeCast_apply x h _ _ (by
    rw [Shape.rowMajor_val_four, Shape.rowMajor_val_three]
    show (i.val * n + r.val) * c + j.val = ((i.val * b + p.val) * d + q.val) * c + j.val
    rw [hr, hn, Nat.add_mul (i.val * b) p.val d, Nat.mul_assoc, Nat.add_assoc])

end Cert.LibRowGroups

end
-- ==== Proof.JointBlock.lean ====
/-
  The joint kernel's body at an entry of its output block, over the extended reals.

  At a grid point the body holds 8 rows of the first projection (`he`, an `[1, 8, 640]` block), the 100 rows of
  the second projection of the same batch element (`hp`, `[1, 100, 640]`), the bias row `b1`, the output weights `w2`
  and the output bias row `b2`. It forms `h (p, q, j) = he (p, j) + hp (q, j) + b1 j`, applies `x ↦ x · logistic x`,
  lists the `8 × 100` pairs `(p, q)` as 800 rows (row `p * 100 + q`), multiplies by `w2` into a zero accumulator
  and adds `b2`. Changes of float format are the identity here, so the entry at row `p * 100 + q` and column `v` is
  `(Σ_j silu (h (p, q, j)) · w2 (j, v)) + b2 v`.
-/
import proofs.«146770_j46170898432387_2_alg».proof.Proof.Gen.KernelIdeal.Skeleton
import proofs.«146770_j46170898432387_2_alg».proof.Proof.JointSpec
import proofs.«146770_j46170898432387_2_alg».proof.Proof.LibContractPlain
import proofs.«146770_j46170898432387_2_alg».proof.Proof.LibUnitAxes
import proofs.«146770_j46170898432387_2_alg».proof.Proof.LibRowGroups
import Idealize.ShloMosaic.Lib.ValueLayout
import Idealize.ShloMosaic.Lib.Pipeline.Value
import Idealize.ShloMosaic.PureOps.Ideal.Laws

noncomputable section

open scoped BigOperators

namespace Cert.KernelIdeal.JointBlock

open Cert.KernelIdeal Cert.KernelIdeal.Gen
open Idealize.ShloMosaic Idealize.ShloMosaic.ValueIdx

/-- The product of an `800 × 640` by a `640 × 1024` matrix accumulated into zero, at `(i, j)`: the sum over the
    shared coordinate. -/
theorem product_apply (l : FVec Ideal S800x640 .bf16) (r : FVec Ideal S640x1024 .bf16) (i : Fin 800) (j : Fin 1024) :
    matmul dot_S800x640_S640x1024_S800x1024_1_0_0_1_n_n none l r
        (constant (F := Ideal) S800x1024 .f32 0x00000000#32) (ix2 i j)
      = ∑ k : Fin 640, l (ix2 i k) * r (ix2 k j) :=
  Cert.LibContractPlain.matmulPlain_zero_apply 800 640 1024 dot_S800x640_S640x1024_S800x1024_1_0_0_1_n_n_wf none l r i j

/-- The pre-activation at `(p, q, j)`: row `p` of the first block, row `q` of the second, entry `j` of the bias
    row, added in this order. -/
theorem preact_apply (v0 : FVec Ideal S1x8x640 .f32) (v2 : FVec Ideal S1x100x640 .f32) (v4 : FVec Ideal S1x640 .f32)
    (p : Fin 8) (q : Fin 100) (j : Fin 640) :
    addf (addf (broadcastTo S8x100x640 (shapeCast S8x1x640 (shapeCast S8x640 v0 shapeCasts_S1x8x640_S8x640) shapeCasts_S8x640_S8x1x640) broadcasts_S8x1x640_S8x100x640)
               (broadcastTo S8x100x640 (shapeCast S1x100x640 (shapeCast S100x640 v2 shapeCasts_S1x100x640_S100x640) shapeCasts_S100x640_S1x100x640) broadcasts_S1x100x640_S8x100x640))
         (broadcastTo S8x100x640 (shapeCast S1x1x640 (shapeCast S1x640 v4 shapeCasts_S1x640_S1x640) shapeCasts_S1x640_S1x1x640) broadcasts_S1x1x640_S8x100x640)
        (ix3 p q j)
      = v0 (ix3 (0 : Fin 1) p j) + v2 (ix3 (0 : Fin 1) q j) + v4 (ix2 (0 : Fin 1) j) := by
  rw [addf_apply, addf_apply]
  rw [Cert.LibUnitAxes.broadcastTo_a1b_acb_apply, Cert.LibUnitAxes.shapeCast_ab_a1b_apply, shapeCast_1ab_ab_apply]
  rw [Cert.LibRowGroups.broadcastTo_1bc_abc_apply, shapeCast_ab_1ab_apply, shapeCast_1ab_ab_apply]
  rw [Cert.LibRowGroups.broadcastTo_11c_abc_apply, shapeCast_ab_1ab_apply, shapeCast_self]

/-- THE BODY'S STORED VALUE at row `r = p * 100 + q` and column `v` of the output block. -/
theorem payload_apply (v0 : FVec Ideal S1x8x640 .f32) (v2 : FVec Ideal S1x100x640 .f32) (v4 : FVec Ideal S1x640 .f32)
    (v18 : FVec Ideal S640x1024 .f32) (v21 : FVec Ideal S1x1024 .f32)
    (z : Fin 1) (r : Fin 800) (v : Fin 1024) (p : Fin 8) (q : Fin 100) (hr : r.val = p.val * 100 + q.val) :
    k2_pay1 (F := Ideal) v0 v2 v4 v18 v21 (ix3 z r v)
      = (∑ j : Fin 640, Cert.JointSpec.silu (v0 (ix3 (0 : Fin 1) p j) + v2 (ix3 (0 : Fin 1) q j) + v4 (ix2 (0 : Fin 1) j))
            * v18 (ix2 j v)) + v21 (ix2 (0 : Fin 1) v) := by
  unfold k2_pay1
  rw [shapeCast_ab_1ab_apply, addf_apply, product_apply, broadcastTo_1b_ab_apply, shapeCast_self v21]
  refine congrArg (· + v21 (ix2 (0 : Fin 1) v)) (Finset.sum_congr rfl fun j _ => ?_)
  rw [truncf_apply, truncf_apply, Cert.LibRowGroups.shapeCast_abc_nc_apply _ _ r j p q hr, mulf_apply]
  show _ * FloatOps.logistic _ * _ = _
  rw [preact_apply]
  rfl

end Cert.KernelIdeal.JointBlock

end
-- ==== Proof.JointRegion.lean ====
/-
  What the joint pallas_call leaves in its output array, as one function of the arrays it reads.

  The grid is `4 × 25`: point `(b, s)` reads rows `8 s .. 8 s + 7` of batch element `b` of the first projection,
  all 100 rows of batch element `b` of the second projection, the bias row, the output weights and the output bias
  row, and writes rows `800 s .. 800 s + 799` of batch element `b` of the `[4, 20000, 1024]` output. Row
  `R = 100 t + u` of the output therefore pairs row `t` of the first projection with row `u` of the second, and the
  `100` points' blocks tile the output.
-/
import proofs.«146770_j46170898432387_2_alg».proof.Proof.Gen.KernelIdeal.Frame
import proofs.«146770_j46170898432387_2_alg».proof.Proof.JointBlock
import Idealize.ShloMosaic.Lib.Pipeline.Value

set_option maxRecDepth 16384

noncomputable section

open scoped BigOperators

namespace Cert.KernelIdeal.JointRegion

open Cert.KernelIdeal Cert.KernelIdeal.Gen Idealize.ShloMosaic Idealize.ShloMosaic.TcCoe Idealize.SL.Sem
open Idealize.ShloMosaic.ValueIdx
open Idealize.ShloMosaic.Pipeline (Dat)

/-- The output's entry at batch element `b`, row `R` and column `v`: row `R / 100` of the first projection paired
    with row `R % 100` of the second. -/
def rowsAt (he : S4x200x640.Idx → EReal) (hp : S4x100x640.Idx → EReal) (b1 : S1x640.Idx → EReal)
    (w2 : S640x1024.Idx → EReal) (b2 : S1x1024.Idx → EReal) (b : Fin 4) (R : Fin 20000) (v : Fin 1024) : EReal :=
  (∑ j : Fin 640, Cert.JointSpec.silu
      (he (ix3 b (⟨R.val / 100, by have := R.isLt; omega⟩ : Fin 200) j)
        + hp (ix3 b (⟨R.val % 100, by omega⟩ : Fin 100) j) + b1 (ix2 (0 : Fin 1) j)) * w2 (ix2 j v))
    + b2 (ix2 (0 : Fin 1) v)

/-- The whole output array. -/
def rows (he : S4x200x640.Idx → EReal) (hp : S4x100x640.Idx → EReal) (b1 : S1x640.Idx → EReal)
    (w2 : S640x1024.Idx → EReal) (b2 : S1x1024.Idx → EReal) : S4x20000x1024.Idx → EReal :=
  fun i => rowsAt he hp b1 w2 b2 (i 0) (i 1) (i 2)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: the first projection's block moves with the output's on the batch and
    row-block axes, the second projection's on the batch axis only, the other three windows never move; the
    output's block indices range over `4 × 25`. -/
theorem index_facts : ∀ t : Fin cfg2.N,
    win2_0.index t (0 : Fin 3) = win2_5.index t (0 : Fin 3) ∧ win2_0.index t (1 : Fin 3) = win2_5.index t (1 : Fin 3)
    ∧ win2_0.index t (2 : Fin 3) = 0
    ∧ win2_1.index t (0 : Fin 3) = win2_5.index t (0 : Fin 3) ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) ≤ 3 ∧ win2_5.index t (1 : Fin 3) ≤ 24 ∧ win2_5.index t (2 : Fin 3) = 0 :=
  (by decide +kernel : ∀ t : Fin grid2.N, _)

/-- Every block of the `4 × 25` tiling is some point's. -/
theorem index_onto : ∀ (q0 : Fin 4) (q1 : Fin 25), ∃ t : Fin cfg2.N, win2_5.index t = ![q0.val, q1.val, 0] :=
  (by decide +kernel : ∀ (q0 : Fin 4) (q1 : Fin 25), ∃ t : Fin grid2.N, win2_5.index t = ![q0.val, q1.val, 0])

variable (V : (c : Dev nD) → (b : Ref sig .tc) → Buf (Elt Ideal) ((c : Thread nD τ).loc b))

/-- WHAT POINT `t` WRITES BACK is block `t` of `rows` of the arrays as the region finds them. -/
theorem flushed_eq (c : Dev nD) (t : Fin cfg2.N) :
    (dat2 (F := Ideal) V c).flushed 5 t = ((cfg2.win 5).blk t).view.read (Elt Ideal)
      (rows (V c main_v6) (V c main_v7) (V c main_v8) (V c main_arg4) (V c main_v9)) := by
  show (cfg2.win 5).cut (grid2.coords t) ((dat2 V c).after 5 t) = _
  rw [after2_5]
  unfold out2_5
  rw [View.canon_unit_zero zero3]
  simp only [View.ld_unit_zero (S := S1x8x640) zero3, View.ld_unit_zero (S := S1x100x640) zero3,
    View.ld_unit_zero (S := S1x640) zero2, View.ld_unit_zero (S := S640x1024) zero2, View.ld_unit_zero (S := S1x1024) zero2]
  obtain ⟨a00, a01, a02, a10, a11, a12, a20, a21, a30, a31, a40, a41, o0, o1, o2⟩ := index_facts t
  refine funext fun (y : S1x800x1024.Idx) => ?_
  obtain ⟨z, r, v, rfl⟩ : ∃ (z : Fin 1) (r : Fin 800) (v : Fin 1024), y = ix3 z r v := ⟨y 0, y 1, y 2, eq_ix3 y⟩
  have hz : z.val = 0 := by omega
  have hrlt : r.val < 800 := r.isLt
  have hvlt : v.val < 1024 := v.isLt
  obtain ⟨p, hp⟩ : ∃ p : Fin 8, p.val = r.val / 100 := ⟨⟨r.val / 100, by omega⟩, rfl⟩
  obtain ⟨q, hq⟩ : ∃ q : Fin 100, q.val = r.val % 100 := ⟨⟨r.val % 100, by omega⟩, rfl⟩
  have hr : r.val = p.val * 100 + q.val := by omega
  show k2_pay1 (iblk2 V c 0 t) (iblk2 V c 1 t) (iblk2 V c 2 t) (iblk2 V c 3 t) (iblk2 V c 4 t) (ix3 z r v)
      = rows (V c main_v6) (V c main_v7) (V c main_v8) (V c main_arg4) (V c main_v9) (((cfg2.win 5).blk t).view.emb (ix3 z r v))
  refine (Cert.KernelIdeal.JointBlock.payload_apply (iblk2 V c 0 t) (iblk2 V c 1 t) (iblk2 V c 2 t) (iblk2 V c 3 t) (iblk2 V c 4 t) z r v p q hr).trans ?_
  -- the array index under entry (z, r, v) of the output block, coordinate by coordinate
  have hE0 : ((((cfg2.win 5).blk t).view.emb (ix3 z r v)) 0).val = win2_5.index t (0 : Fin 3) * 1 + 1 * z.val := rfl
  have hE1 : ((((cfg2.win 5).blk t).view.emb (ix3 z r v)) 1).val = win2_5.index t (1 : Fin 3) * 800 + 1 * r.val := rfl
  have hE2 : ((((cfg2.win 5).blk t).view.emb (ix3 z r v)) 2).val = win2_5.index t (2 : Fin 3) * 1024 + 1 * v.val := rfl
  generalize ((cfg2.win 5).blk t).view.emb (ix3 z r v) = E at hE0 hE1 hE2 ⊢
  show _ = rowsAt (V c main_v6) (V c main_v7) (V c main_v8) (V c main_arg4) (V c main_v9) (E 0) (E 1) (E 2)
  unfold rowsAt
  refine congrArg₂ (· + ·) (Finset.sum_congr rfl fun j _ => ?_) ?_
  · have hjlt : j.val < 640 := j.isLt
    refine congrArg₂ (· * ·) (congrArg Cert.JointSpec.silu (congrArg₂ (· + ·) (congrArg₂ (· + ·) ?_ ?_) ?_)) ?_
    · -- rows of the first projection: the block's row p is array row (E 1) / 100
      show V c main_v6 (((cfg2.win 0).blk t).view.emb (ix3 (0 : Fin 1) p j)) = _
      refine congrArg (V c main_v6) (funext fun a => Fin.ext ?_)
      match a with
      | ⟨0, _⟩ => show win2_0.index t (0 : Fin 3) * 1 + 1 * 0 = (E 0).val; omega
      | ⟨1, _⟩ => show win2_0.index t (1 : Fin 3) * 8 + 1 * p.val = (E 1).val / 100; omega
      | ⟨2, _⟩ => show win2_0.index t (2 : Fin 3) * 640 + 1 * j.val = j.val; omega
    · -- rows of the second projection: the block's row q is array row (E 1) % 100
      show V c main_v7 (((cfg2.win 1).blk t).view.emb (ix3 (0 : Fin 1) q j)) = _
      refine congrArg (V c main_v7) (funext fun a => Fin.ext ?_)
      match a with
      | ⟨0, _⟩ => show win2_1.index t (0 : Fin 3) * 1 + 1 * 0 = (E 0).val; omega
      | ⟨1, _⟩ => show win2_1.index t (1 : Fin 3) * 100 + 1 * q.val = (E 1).val % 100; omega
      | ⟨2, _⟩ => show win2_1.index t (2 : Fin 3) * 640 + 1 * j.val = j.val; omega
    · show V c main_v8 (((cfg2.win 2).blk t).view.emb (ix2 (0 : Fin 1) j)) = _
      refine congrArg (V c main_v8) (funext fun a => Fin.ext ?_)
      match a with
      | ⟨0, _⟩ => show win2_2.index t (0 : Fin 2) * 1 + 1 * 0 = 0; omega
      | ⟨1, _⟩ => show win2_2.index t (1 : Fin 2) * 640 + 1 * j.val = j.val; omega
    · show V c main_arg4 (((cfg2.win 3).blk t).view.emb (ix2 j v)) = _
      refine congrArg (V c main_arg4) (funext fun a => Fin.ext ?_)
      match a with
      | ⟨0, _⟩ => show win2_3.index t (0 : Fin 2) * 640 + 1 * j.val = j.val; omega
      | ⟨1, _⟩ => show win2_3.index t (1 : Fin 2) * 1024 + 1 * v.val = (E 2).val; omega
  · show V c main_v9 (((cfg2.win 4).blk t).view.emb (ix2 (0 : Fin 1) v)) = _
    refine congrArg (V c main_v9) (funext fun a => Fin.ext ?_)
    match a with
    | ⟨0, _⟩ => show win2_4.index t (0 : Fin 2) * 1 + 1 * 0 = 0; omega
    | ⟨1, _⟩ => show win2_4.index t (1 : Fin 2) * 1024 + 1 * v.val = (E 2).val; omega

/-- An index of the output array is in point `t`'s block iff each coordinate is in the block's range on its axis. -/
theorem mem_block (t : Fin cfg2.N) (i : S4x20000x1024.Idx) :
    i ∈ ((cfg2.win 5).blk t).view.set ↔ ∀ a : Fin 3, win2_5.index t a * S1x800x1024.size a ≤ (i a).val
      ∧ (i a).val < win2_5.index t a * S1x800x1024.size a + S1x800x1024.size a := by
  show i ∈ ((View.whole main_v10).slice (win2_5.rect t)).set ↔ _
  rw [View.set_slice_whole, Rect.mem_set_unit]
  exact Iff.rfl

/-- The blocks tile the output: row `R` of batch element `b` is in the block of the point `(b, R / 800)`. -/
theorem covered (i : S4x20000x1024.Idx) :
    ∃ t : Fin cfg2.N, (cfg2.win 5).flush t = true ∧ i ∈ ((cfg2.win 5).blk t).view.set := by
  have hi0 : (i 0).val < 4 := (i 0).isLt
  have hi1 : (i 1).val < 20000 := (i 1).isLt
  have hi2 : (i 2).val < 1024 := (i 2).isLt
  obtain ⟨t, ht⟩ := index_onto ⟨(i 0).val, hi0⟩ ⟨(i 1).val / 800, by omega⟩
  have q0 : win2_5.index t (0 : Fin 3) = (i 0).val := congrFun ht 0
  have q1 : win2_5.index t (1 : Fin 3) = (i 1).val / 800 := congrFun ht 1
  have q2 : win2_5.index t (2 : Fin 3) = 0 := congrFun ht 2
  refine ⟨t, flush2_5 t, ?_⟩
  rw [mem_block]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 800 ≤ (i 1).val ∧ (i 1).val < win2_5.index t (1 : Fin 3) * 800 + 800; omega
  | ⟨2, _⟩ => show win2_5.index t (2 : Fin 3) * 1024 ≤ (i 2).val ∧ (i 2).val < win2_5.index t (2 : Fin 3) * 1024 + 1024; omega

/-- THE OUTPUT ARRAY after the joint pallas_call: `rows` of the arrays as the region finds them. -/
theorem array (c : Dev nD) :
    (dat2 (F := Ideal) V c).arrAt 5 cfg2.N
      = rows (V c main_v6) (V c main_v7) (V c main_v8) (V c main_arg4) (V c main_v9) :=
  (dat2 V c).arrAt_eq_of_cover 5 _ (fun t _ => flushed_eq V c t) covered

end Cert.KernelIdeal.JointRegion

end
-- ==== Proof.KernelValue.lean ====
/-
  The idealized kernel's result buffer, read back through the whole program, is the specification's function of
  the six argument arrays.

  The program is: two row slices of the stacked weights and two reshapes that list the rows of `enc` and of `pred`
  as the rows of matrices; the two projection pallas_calls (row `b * 200 + t` of the first product is the projection
  of row `(b, t)` of `enc`, row `b * 100 + u` of the second that of row `(b, u)` of `pred`); reshapes that regroup
  those rows by batch element and give the two bias vectors a leading unit axis; the joint pallas_call; and a
  final reshape that splits output row `100 t + u` into `(t, u)`. Each boundary's contents are read one operation
  at a time, down to the launch memory.
-/
import proofs.«146770_j46170898432387_2_alg».proof.Proof.Gen.KernelIdeal.Frame
import proofs.«146770_j46170898432387_2_alg».proof.Proof.JointSpec
import proofs.«146770_j46170898432387_2_alg».proof.Proof.ProjRegions
import proofs.«146770_j46170898432387_2_alg».proof.Proof.JointRegion
import proofs.«146770_j46170898432387_2_alg».proof.Proof.LibRowGroups
import Idealize.ShloMosaic.Lib.StableHlo.Run
import Idealize.ShloMosaic.Lib.ValueLayout

set_option maxRecDepth 16384

noncomputable section

open scoped BigOperators

namespace Cert.KernelIdeal.Composite

open Cert.KernelIdeal Cert.KernelIdeal.Gen Idealize.ShloMosaic Idealize.ShloMosaic.TcCoe Idealize.SL.Sem
open Idealize.ShloMosaic.ValueIdx
open Cert.KernelIdeal.ProjValue (rowsProduct rowsProduct_ix2)

variable (m : (ℓ : Loc nD τ sig) → Buf (Elt Ideal) ℓ) (ρ : Dev nD → PrngReg) (c : Dev nD)

/-! ## The first host stretch: the two halves of the stacked weights, the rows of `enc` and of `pred` -/

theorem entry_v0 : W1 m ρ c (Proc.devRef .tc main_v0)
    = extractStridedSlice S640x640 ![0, 0] (m ((c : Thread nD τ).loc main_arg2)) slices_S1280x640_S640x640_0_0 := by
  show StableHlo.after hostOps0 (W0 m ρ c) (Proc.devRef .tc main_v0) = _
  after_results <;> rfl

theorem entry_v1 : W1 m ρ c (Proc.devRef .tc main_v1)
    = extractStridedSlice S640x640 ![640, 0] (m ((c : Thread nD τ).loc main_arg2)) slices_S1280x640_S640x640_640_0 := by
  show StableHlo.after hostOps0 (W0 m ρ c) (Proc.devRef .tc main_v1) = _
  after_results <;> rfl

theorem entry_v2 : W1 m ρ c (Proc.devRef .tc main_v2)
    = shapeCast S800x640 (m ((c : Thread nD τ).loc main_arg0)) shapeCasts_S4x200x640_S800x640 := by
  show StableHlo.after hostOps0 (W0 m ρ c) (Proc.devRef .tc main_v2) = _
  after_results <;> rfl

theorem entry_v3 : W1 m ρ c (Proc.devRef .tc main_v3)
    = shapeCast S400x640 (m ((c : Thread nD τ).loc main_arg1)) shapeCasts_S4x100x640_S400x640 := by
  show StableHlo.after hostOps0 (W0 m ρ c) (Proc.devRef .tc main_v3) = _
  after_results <;> rfl

/-- An argument no host operation writes is still at its launch contents after the first stretch. -/
theorem entry_arg3 : W1 m ρ c (Proc.devRef .tc main_arg3) = m ((c : Thread nD τ).loc main_arg3) := by
  show StableHlo.after hostOps0 (W0 m ρ c) (Proc.devRef .tc main_arg3) = _
  after_results <;> rfl
theorem entry_arg4 : W1 m ρ c (Proc.devRef .tc main_arg4) = m ((c : Thread nD τ).loc main_arg4) := by
  show StableHlo.after hostOps0 (W0 m ρ c) (Proc.devRef .tc main_arg4) = _
  after_results <;> rfl
theorem entry_arg5 : W1 m ρ c (Proc.devRef .tc main_arg5) = m ((c : Thread nD τ).loc main_arg5) := by
  show StableHlo.after hostOps0 (W0 m ρ c) (Proc.devRef .tc main_arg5) = _
  after_results <;> rfl

/-! ## The two projection pallas_calls -/

/-- After both projections the first product's array holds the rows of `enc` times the upper half of the weights. -/
theorem he_array : W3 m ρ c (Proc.devRef .tc main_v4)
    = rowsProduct 800 (W1 m ρ c (Proc.devRef .tc main_v2)) (W1 m ρ c (Proc.devRef .tc main_v0)) :=
  (W3_of_ne m ρ c main_v4 (by decide)).trans ((W2_arr m ρ c 2).trans (Cert.KernelIdeal.ProjValue.region0_array (V1 m ρ) c))

/-- And the second product's array holds the rows of `pred` times the lower half of the weights. -/
theorem hp_array : W3 m ρ c (Proc.devRef .tc main_v5)
    = rowsProduct 400 (W1 m ρ c (Proc.devRef .tc main_v3)) (W1 m ρ c (Proc.devRef .tc main_v1)) := by
  refine (W3_arr m ρ c 2).trans ((Cert.KernelIdeal.ProjValue.region1_array (V2 m ρ) c).trans ?_)
  show rowsProduct 400 (W2 m ρ c (Proc.devRef .tc main_v3)) (W2 m ρ c (Proc.devRef .tc main_v1)) = _
  rw [W2_of_ne m ρ c main_v3 (by decide), W2_of_ne m ρ c main_v1 (by decide)]

/-- The arguments the joint pallas_call still needs are untouched by the projections. -/
theorem mid_arg3 : W3 m ρ c (Proc.devRef .tc main_arg3) = m ((c : Thread nD τ).loc main_arg3) :=
  (W3_of_ne m ρ c main_arg3 (by decide)).trans ((W2_of_ne m ρ c main_arg3 (by decide)).trans (entry_arg3 m ρ c))
theorem mid_arg4 : W3 m ρ c (Proc.devRef .tc main_arg4) = m ((c : Thread nD τ).loc main_arg4) :=
  (W3_of_ne m ρ c main_arg4 (by decide)).trans ((W2_of_ne m ρ c main_arg4 (by decide)).trans (entry_arg4 m ρ c))
theorem mid_arg5 : W3 m ρ c (Proc.devRef .tc main_arg5) = m ((c : Thread nD τ).loc main_arg5) :=
  (W3_of_ne m ρ c main_arg5 (by decide)).trans ((W2_of_ne m ρ c main_arg5 (by decide)).trans (entry_arg5 m ρ c))

/-! ## The second host stretch: rows regrouped by batch element, bias vectors as one-row matrices -/

theorem joint_v6 : W4 m ρ c (Proc.devRef .tc main_v6)
    = shapeCast S4x200x640 (W3 m ρ c (Proc.devRef .tc main_v4)) shapeCasts_S800x640_S4x200x640 := by
  show StableHlo.after hostOps2 (W3 m ρ c) (Proc.devRef .tc main_v6) = _
  after_results <;> rfl
theorem joint_v7 : W4 m ρ c (Proc.devRef .tc main_v7)
    = shapeCast S4x100x640 (W3 m ρ c (Proc.devRef .tc main_v5)) shapeCasts_S400x640_S4x100x640 := by
  show StableHlo.after hostOps2 (W3 m ρ c) (Proc.devRef .tc main_v7) = _
  after_results <;> rfl
theorem joint_v8 : W4 m ρ c (Proc.devRef .tc main_v8)
    = shapeCast S1x640 (W3 m ρ c (Proc.devRef .tc main_arg3)) shapeCasts_S640_S1x640 := by
  show StableHlo.after hostOps2 (W3 m ρ c) (Proc.devRef .tc main_v8) = _
  after_results <;> rfl
theorem joint_v9 : W4 m ρ c (Proc.devRef .tc main_v9)
    = shapeCast S1x1024 (W3 m ρ c (Proc.devRef .tc main_arg5)) shapeCasts_S1024_S1x1024 := by
  show StableHlo.after hostOps2 (W3 m ρ c) (Proc.devRef .tc main_v9) = _
  after_results <;> rfl
theorem joint_arg4 : W4 m ρ c (Proc.devRef .tc main_arg4) = m ((c : Thread nD τ).loc main_arg4) := by
  refine Eq.trans ?_ (mid_arg4 m ρ c)
  show StableHlo.after hostOps2 (W3 m ρ c) (Proc.devRef .tc main_arg4) = _
  after_results <;> rfl

/-! ## What the joint pallas_call reads, at an index -/

/-- Row `(b, t)` of the regrouped first product is the projection of row `(b, t)` of `enc`. -/
theorem he_at (b : Fin 4) (t : Fin 200) (j : Fin 640) :
    W4 m ρ c (Proc.devRef .tc main_v6) (ix3 b t j)
      = Cert.JointSpec.encProj (m ((c : Thread nD τ).loc main_arg0)) (m ((c : Thread nD τ).loc main_arg2)) b t j := by
  have hb := b.isLt
  have ht := t.isLt
  obtain ⟨R, hR⟩ : ∃ R : Fin 800, R.val = b.val * 200 + t.val := ⟨⟨b.val * 200 + t.val, by omega⟩, rfl⟩
  rw [joint_v6, Cert.LibRowGroups.shapeCast_nc_abc_apply _ _ b t j R hR, he_array, rowsProduct_ix2]
  unfold Cert.JointSpec.encProj
  show @Eq EReal _ _
  refine Finset.sum_congr rfl fun k _ => ?_
  rw [entry_v2, entry_v0, Cert.LibRowGroups.shapeCast_abc_nc_apply _ _ R k b t hR,
    slice2_axis0_apply 0 _ _ k j (Cert.JointSpec.rowLo k) (by show k.val = 0 + k.val; omega)]

/-- Row `(b, u)` of the regrouped second product is the projection of row `(b, u)` of `pred`. -/
theorem hp_at (b : Fin 4) (u : Fin 100) (j : Fin 640) :
    W4 m ρ c (Proc.devRef .tc main_v7) (ix3 b u j)
      = Cert.JointSpec.predProj (m ((c : Thread nD τ).loc main_arg1)) (m ((c : Thread nD τ).loc main_arg2)) b u j := by
  have hb := b.isLt
  have hu := u.isLt
  obtain ⟨R, hR⟩ : ∃ R : Fin 400, R.val = b.val * 100 + u.val := ⟨⟨b.val * 100 + u.val, by omega⟩, rfl⟩
  rw [joint_v7, Cert.LibRowGroups.shapeCast_nc_abc_apply _ _ b u j R hR, hp_array, rowsProduct_ix2]
  unfold Cert.JointSpec.predProj
  show @Eq EReal _ _
  refine Finset.sum_congr rfl fun k _ => ?_
  rw [entry_v3, entry_v1, Cert.LibRowGroups.shapeCast_abc_nc_apply _ _ R k b u hR,
    slice2_axis0_apply 640 _ _ k j (Cert.JointSpec.rowHi k) (by show 640 + k.val = 640 + k.val; rfl)]

/-- The one-row bias matrices read their vectors. -/
theorem b1_at (j : Fin 640) :
    W4 m ρ c (Proc.devRef .tc main_v8) (ix2 (0 : Fin 1) j) = m ((c : Thread nD τ).loc main_arg3) (ix1 j) := by
  rw [joint_v8, shapeCast_a_1a_apply, mid_arg3]
theorem b2_at (v : Fin 1024) :
    W4 m ρ c (Proc.devRef .tc main_v9) (ix2 (0 : Fin 1) v) = m ((c : Thread nD τ).loc main_arg5) (ix1 v) := by
  rw [joint_v9, shapeCast_a_1a_apply, mid_arg5]

/-! ## The joint pallas_call and the final reshape -/

theorem joint_array : W5 m ρ c (Proc.devRef .tc main_v10)
    = Cert.KernelIdeal.JointRegion.rows (W4 m ρ c (Proc.devRef .tc main_v6)) (W4 m ρ c (Proc.devRef .tc main_v7))
        (W4 m ρ c (Proc.devRef .tc main_v8)) (W4 m ρ c (Proc.devRef .tc main_arg4)) (W4 m ρ c (Proc.devRef .tc main_v9)) :=
  (W5_arr m ρ c 5).trans (Cert.KernelIdeal.JointRegion.array (V4 m ρ) c)

theorem exit_v11 : W6 m ρ c (Proc.devRef .tc main_v11)
    = shapeCast S4x200x100x1024 (W5 m ρ c (Proc.devRef .tc main_v10)) shapeCasts_S4x20000x1024_S4x200x100x1024 := by
  show StableHlo.after hostOps3 (W5 m ρ c) (Proc.devRef .tc main_v11) = _
  after_results <;> rfl

/-- THE RESULT: the program's result buffer holds the specification's logits of the six argument arrays. -/
theorem result_eq : W6 m ρ c (Proc.devRef .tc main_v11)
    = Cert.JointSpec.logits (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  funext i
  obtain ⟨b, t, u, v, rfl⟩ : ∃ (b : Fin 4) (t : Fin 200) (u : Fin 100) (v : Fin 1024), i = ix4 b t u v :=
    ⟨i 0, i 1, i 2, i 3, eq_ix4 i⟩
  have ht := t.isLt
  have hu := u.isLt
  obtain ⟨R, hR⟩ : ∃ R : Fin 20000, R.val = t.val * 100 + u.val := ⟨⟨t.val * 100 + u.val, by omega⟩, rfl⟩
  rw [exit_v11, Cert.LibRowGroups.shapeCast_anc_abdc_apply _ _ b t u v R (by norm_num) hR, joint_array]
  show Cert.KernelIdeal.JointRegion.rowsAt _ _ _ _ _ b R v = Cert.JointSpec.logitAt _ _ _ _ _ _ b t u v
  unfold Cert.KernelIdeal.JointRegion.rowsAt Cert.JointSpec.logitAt Cert.JointSpec.hidden
  have eT : ∀ h : R.val / 100 < 200, (⟨R.val / 100, h⟩ : Fin 200) = t := fun h => Fin.ext (by show R.val / 100 = t.val; omega)
  have eU : ∀ h : R.val % 100 < 100, (⟨R.val % 100, h⟩ : Fin 100) = u := fun h => Fin.ext (by show R.val % 100 = u.val; omega)
  refine congrArg₂ (· + ·) (Finset.sum_congr rfl fun j _ => ?_) (b2_at m ρ c v)
  refine congrArg₂ (· * ·) (congrArg Cert.JointSpec.silu (congrArg₂ (· + ·) (congrArg₂ (· + ·) ?_ ?_) (b1_at m ρ c j))) ?_
  · rw [eT]; exact he_at m ρ c b t j
  · rw [eU]; exact hp_at m ρ c b u j
  · exact congrFun (joint_arg4 m ρ c) (ix2 j v)

end Cert.KernelIdeal.Composite

end
-- ==== Proof.RefIsSpec.lean ====
/-
  The reference program's result is the specification.

  The reference computes, for every output position `(b, t, u, v)`,

    (Σ_j silu (h_j) · w2 (j, v)) + b2 v,   h_j = (Σ_k enc (b, t, k) · w1 (k, j)) + (Σ_k pred (b, u, k) · w1 (640 + k, j)) + b1 j,

  reaching its operands through slices of the stacked weight matrix and through broadcasts along axes of size
  one. Read at coordinates, every slice and broadcast is a re-indexing, the sums run over the same index set
  in the same order, and the two additions are nested the same way, so no algebraic law is used: the proof
  identifies the re-indexed positions with the positions the specification names, and recognises the logistic
  factor, which the reference spells `1 / (1 + e^(-x))`.
-/
import proofs.«146770_j46170898432387_2_alg».proof.Proof.Gen.ReferenceIdeal.Read
import proofs.«146770_j46170898432387_2_alg».proof.Proof.JointSpec

noncomputable section

open scoped BigOperators

namespace Cert.ReferenceIdeal.RefSpec

open Cert.ReferenceIdeal Cert.ReferenceIdeal.Gen Cert.ReferenceIdeal.Read Idealize.ShloMosaic Idealize.ShloMosaic.ValueIdx
open Cert.JointSpec

/-! ## The re-indexings, at coordinates -/

/-- The left operand of the first contraction at `(b, t, j)`, term `k`, is `enc` at `(b, t, k)`. -/
theorem lidx_v2_at (b : Fin 4) (t : Fin 200) (j k : Fin 640) :
    lidx_main_v2 (ix3 b t j) k = ix3 b t k := by
  funext a
  match a with
  | ⟨0, _⟩ => rfl
  | ⟨1, _⟩ => rfl
  | ⟨2, _⟩ => rfl

/-- The right operand of the first contraction at `(b, t, j)`, term `k`, is row `k` of the stacked weights, column `j`. -/
theorem ridx_v2_at (b : Fin 4) (t : Fin 200) (j k : Fin 640) :
    idx_main_v0 (ridx_main_v2 (ix3 b t j) k) = ix2 (rowLo k) j := by
  funext a
  match a with
  | ⟨0, _⟩ => rfl
  | ⟨1, _⟩ => rfl

/-- The left operand of the second contraction at `(b, u, j)`, term `k`, is `pred` at `(b, u, k)`. -/
theorem lidx_v3_at (b : Fin 4) (u : Fin 100) (j k : Fin 640) :
    lidx_main_v3 (ix3 b u j) k = ix3 b u k := by
  funext a
  match a with
  | ⟨0, _⟩ => rfl
  | ⟨1, _⟩ => rfl
  | ⟨2, _⟩ => rfl

/-- The right operand of the second contraction at `(b, u, j)`, term `k`, is row `640 + k` of the stacked weights, column `j`. -/
theorem ridx_v3_at (b : Fin 4) (u : Fin 100) (j k : Fin 640) :
    idx_main_v1 (ridx_main_v3 (ix3 b u j) k) = ix2 (rowHi k) j := by
  funext a
  match a with
  | ⟨0, _⟩ => rfl
  | ⟨1, _⟩ => rfl

/-- The two broadcasts of the first projection read it at `(b, t, j)`. -/
theorem idx_v4_v6_at (b : Fin 4) (t : Fin 200) (u : Fin 100) (j : Fin 640) :
    idx_main_v4 (idx_main_v6 (ix4 b t u j)) = ix3 b t j := by
  funext a
  match a with
  | ⟨0, _⟩ => rfl
  | ⟨1, _⟩ => rfl
  | ⟨2, _⟩ => rfl

/-- The two broadcasts of the second projection read it at `(b, u, j)`. -/
theorem idx_v5_v7_at (b : Fin 4) (t : Fin 200) (u : Fin 100) (j : Fin 640) :
    idx_main_v5 (idx_main_v7 (ix4 b t u j)) = ix3 b u j := by
  funext a
  match a with
  | ⟨0, _⟩ => rfl
  | ⟨1, _⟩ => rfl
  | ⟨2, _⟩ => rfl

/-- The two broadcasts of the hidden bias read it at `j`. -/
theorem idx_v9_v10_at (b : Fin 4) (t : Fin 200) (u : Fin 100) (j : Fin 640) :
    idx_main_v9 (idx_main_v10 (ix4 b t u j)) = ix1 j := by
  funext a
  match a with
  | ⟨0, _⟩ => rfl

/-- The left operand of the output contraction at `(b, t, u, v)`, term `j`, is the activation at `(b, t, u, j)`. -/
theorem lidx_v13_at (b : Fin 4) (t : Fin 200) (u : Fin 100) (v : Fin 1024) (j : Fin 640) :
    lidx_main_v13 (ix4 b t u v) j = ix4 b t u j := by
  funext a
  match a with
  | ⟨0, _⟩ => rfl
  | ⟨1, _⟩ => rfl
  | ⟨2, _⟩ => rfl
  | ⟨3, _⟩ => rfl

/-- The right operand of the output contraction at `(b, t, u, v)`, term `j`, is the output weight at `(j, v)`. -/
theorem ridx_v13_at (b : Fin 4) (t : Fin 200) (u : Fin 100) (v : Fin 1024) (j : Fin 640) :
    ridx_main_v13 (ix4 b t u v) j = ix2 j v := by
  funext a
  match a with
  | ⟨0, _⟩ => rfl
  | ⟨1, _⟩ => rfl

/-- The two broadcasts of the output bias read it at `v`. -/
theorem idx_v14_v15_at (b : Fin 4) (t : Fin 200) (u : Fin 100) (v : Fin 1024) :
    idx_main_v14 (idx_main_v15 (ix4 b t u v)) = ix1 v := by
  funext a
  match a with
  | ⟨0, _⟩ => rfl

/-! ## The stages, at coordinates -/

/-- The first contraction is the projection of `enc` by the upper half of the stacked weights. -/
theorem v2_at (x0 : (⟨S4x200x640, .f32⟩ : BufTy).Contents (Elt Ideal)) (x2 : (⟨S1280x640, .f32⟩ : BufTy).Contents (Elt Ideal)) (b : Fin 4) (t : Fin 200) (j : Fin 640) :
    val_main_v2 (F := Ideal) x0 x2 (ix3 b t j) = encProj x0 x2 b t j := by
  rw [val_main_v2_apply]
  unfold encProj
  refine Finset.sum_congr rfl fun k _ => ?_
  rw [val_main_v0_apply, lidx_v2_at, ridx_v2_at]

/-- The second contraction is the projection of `pred` by the lower half of the stacked weights. -/
theorem v3_at (x1 : (⟨S4x100x640, .f32⟩ : BufTy).Contents (Elt Ideal)) (x2 : (⟨S1280x640, .f32⟩ : BufTy).Contents (Elt Ideal)) (b : Fin 4) (u : Fin 100) (j : Fin 640) :
    val_main_v3 (F := Ideal) x1 x2 (ix3 b u j) = predProj x1 x2 b u j := by
  rw [val_main_v3_apply]
  unfold predProj
  refine Finset.sum_congr rfl fun k _ => ?_
  rw [val_main_v1_apply, lidx_v3_at, ridx_v3_at]

/-- The sum of the two broadcast projections and the broadcast bias is the hidden pre-activation. -/
theorem v11_at (x0 : (⟨S4x200x640, .f32⟩ : BufTy).Contents (Elt Ideal)) (x1 : (⟨S4x100x640, .f32⟩ : BufTy).Contents (Elt Ideal)) (x2 : (⟨S1280x640, .f32⟩ : BufTy).Contents (Elt Ideal)) (x3 : (⟨S640, .f32⟩ : BufTy).Contents (Elt Ideal)) (b : Fin 4) (t : Fin 200) (u : Fin 100) (j : Fin 640) :
    val_main_v11 (F := Ideal) x0 x1 x2 x3 (ix4 b t u j) = hidden x0 x1 x2 x3 b t u j := by
  rw [val_main_v11_apply, val_main_v8_apply, val_main_v6_apply, val_main_v4_apply, val_main_v7_apply,
    val_main_v5_apply, val_main_v10_apply, val_main_v9_apply, idx_v4_v6_at, idx_v5_v7_at, idx_v9_v10_at,
    v2_at, v3_at]
  rfl

/-- The activation: the pre-activation times `1 / (1 + e^(-x))`, which is `silu` of the pre-activation. -/
theorem v12_at (x0 : (⟨S4x200x640, .f32⟩ : BufTy).Contents (Elt Ideal)) (x1 : (⟨S4x100x640, .f32⟩ : BufTy).Contents (Elt Ideal)) (x2 : (⟨S1280x640, .f32⟩ : BufTy).Contents (Elt Ideal)) (x3 : (⟨S640, .f32⟩ : BufTy).Contents (Elt Ideal)) (b : Fin 4) (t : Fin 200) (u : Fin 100) (j : Fin 640) :
    val_main_v12 (F := Ideal) x0 x1 x2 x3 (ix4 b t u j) = silu (hidden x0 x1 x2 x3 b t u j) := by
  rw [val_main_v12_apply, val_main_call0_v5_apply, val_main_call0_v4_apply, val_main_call0_cst_0_apply,
    val_main_call0_v3_apply, val_main_call0_v2_apply, val_main_call0_cst_apply, val_main_call0_v1_apply,
    val_main_call0_v0_apply, v11_at]
  simp only [Ideal.mulf_def, Ideal.hostDivf_def, Ideal.addf_def, Ideal.hostUnary_exp_def, Ideal.hostNegf_def,
    Ideal.negf_def, Ideal.ofBits_def]
  rw [logistic_spelt]
  rfl

/-- The reference's result at `(b, t, u, v)` is the specification's output there. -/
theorem v16_at (x0 : (⟨S4x200x640, .f32⟩ : BufTy).Contents (Elt Ideal)) (x1 : (⟨S4x100x640, .f32⟩ : BufTy).Contents (Elt Ideal)) (x2 : (⟨S1280x640, .f32⟩ : BufTy).Contents (Elt Ideal)) (x3 : (⟨S640, .f32⟩ : BufTy).Contents (Elt Ideal)) (x4 : (⟨S640x1024, .f32⟩ : BufTy).Contents (Elt Ideal)) (x5 : (⟨S1024, .f32⟩ : BufTy).Contents (Elt Ideal)) (b : Fin 4) (t : Fin 200) (u : Fin 100) (v : Fin 1024) :
    val_main_v16 (F := Ideal) x0 x1 x2 x3 x4 x5 (ix4 b t u v) = logitAt x0 x1 x2 x3 x4 x5 b t u v := by
  rw [val_main_v16_apply, val_main_v13_apply, val_main_v15_apply, val_main_v14_apply, idx_v14_v15_at]
  unfold logitAt
  rw [Ideal.addf_def]
  refine congrArg (· + x5 (ix1 v)) ?_
  refine Finset.sum_congr rfl fun j _ => ?_
  rw [lidx_v13_at, ridx_v13_at, v12_at]

/-- The reference program's result is the specification. -/
theorem result_eq (x0 : (⟨S4x200x640, .f32⟩ : BufTy).Contents (Elt Ideal)) (x1 : (⟨S4x100x640, .f32⟩ : BufTy).Contents (Elt Ideal)) (x2 : (⟨S1280x640, .f32⟩ : BufTy).Contents (Elt Ideal)) (x3 : (⟨S640, .f32⟩ : BufTy).Contents (Elt Ideal)) (x4 : (⟨S640x1024, .f32⟩ : BufTy).Contents (Elt Ideal)) (x5 : (⟨S1024, .f32⟩ : BufTy).Contents (Elt Ideal)) :
    Cert.ReferenceIdeal.Read.val_main_v16 (F := Ideal) x0 x1 x2 x3 x4 x5 = Cert.JointSpec.logits x0 x1 x2 x3 x4 x5 := by
  funext i
  obtain ⟨b, t, u, v, rfl⟩ : ∃ (b : Fin 4) (t : Fin 200) (u : Fin 100) (v : Fin 1024), i = ix4 b t u v :=
    ⟨i 0, i 1, i 2, i 3, eq_ix4 i⟩
  exact v16_at x0 x1 x2 x3 x4 x5 b t u v

end Cert.ReferenceIdeal.RefSpec

end
-- ==== Proof.lean ====
/-
  A joint network over an encoder sequence and a predictor sequence: both programs return

    logit (b, t, u, v) = (Σ_j silu (h (b, t, u, j)) · W2 (j, v)) + b2 v,
    h (b, t, u, j)     = (Σ_k enc (b, t, k) · W1 (k, j)) + (Σ_k pred (b, u, k) · W1 (640 + k, j)) + b1 j,

  with `silu x = x · logistic x`, as extended reals (Proof/JointSpec.lean).

  The kernel computes the two projections by two row-blocked matrix products, regroups their rows by batch
  element, and in a third pallas_call forms `h` for 8 values of `t` and all 100 values of `u` at a time, applies
  `silu`, multiplies the 800 rows by `W2` and adds `b2`; the host reshapes the `[4, 20000, 1024]` result to
  `[4, 200, 100, 1024]`. Its roundings to a shorter float format on the way into the products are the identity over
  the extended reals. The reference contracts `enc` and `pred` with the two halves of `W1` directly, broadcasts and
  adds in the same order, spells the logistic factor as `1 / (1 + e^(-x))`, and contracts with `W2`. No sum is
  reordered and no factor is moved across a sum, so no finiteness of the inputs is used: the two results are the same
  expression index by index once every block and every reshape is read at an index.

  Proof/KernelRun.lean names the kernel's result buffer at the end of its run; Proof/ProjRegions.lean,
  Proof/JointBlock.lean and Proof/JointRegion.lean read the three pallas_calls' output arrays as functions of what they
  read; Proof/KernelValue.lean composes them with the host's slices and reshapes; Proof/RefIsSpec.lean reads the
  reference. The idealization rewrote nothing, so `preserves` is trivial.
-/
import proofs.«146770_j46170898432387_2_alg».proof.Defs
import proofs.«146770_j46170898432387_2_alg».proof.Proof.Gen.Kernel
import proofs.«146770_j46170898432387_2_alg».proof.Proof.Gen.Kernel.Skeleton
import proofs.«146770_j46170898432387_2_alg».proof.Proof.Gen.Kernel.Launch
import proofs.«146770_j46170898432387_2_alg».proof.Proof.Gen.Kernel.Points
import proofs.«146770_j46170898432387_2_alg».proof.Proof.Gen.Kernel.Frame
import proofs.«146770_j46170898432387_2_alg».proof.Proof.Gen.KernelIdeal
import proofs.«146770_j46170898432387_2_alg».proof.Proof.Gen.KernelIdeal.Skeleton
import proofs.«146770_j46170898432387_2_alg».proof.Proof.Gen.KernelIdeal.Launch
import proofs.«146770_j46170898432387_2_alg».proof.Proof.Gen.KernelIdeal.Points
import proofs.«146770_j46170898432387_2_alg».proof.Proof.Gen.KernelIdeal.Frame
import proofs.«146770_j46170898432387_2_alg».proof.Proof.Gen.ReferenceIdeal
import proofs.«146770_j46170898432387_2_alg».proof.Proof.Gen.ReferenceIdeal.Run
import proofs.«146770_j46170898432387_2_alg».proof.Proof.Gen.ReferenceIdeal.Read
import proofs.«146770_j46170898432387_2_alg».proof.Proof.Gen.Pre_finite_inputs
import proofs.«146770_j46170898432387_2_alg».proof.Proof.KernelRun
import proofs.«146770_j46170898432387_2_alg».proof.Proof.KernelValue
import proofs.«146770_j46170898432387_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's run ends with its result buffer at the specification's logits of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v11)
            = Cert.JointSpec.logits (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.Composite.result_eq m ρ c), (h c).2⟩)
    (Cert.KernelIdeal.RunValue.run_named (F := Ideal) m ρ)

/-- The idealization rewrote no operation. -/
theorem preserves : Cert.preserves_Kernel_KernelIdeal := trivial

/-- From memories that agree on the six arguments both idealized programs end with the specification's logits of
    those arguments in their result buffers. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefSpec.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
